-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel

variable [Facts]

def fn {F : FTy → Type} [FloatOps F] (main_arg0 : FVec F S4x4096x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  main_v3
-- ==== Kernel.lean ====
abbrev S4x4096x4096 : Shape := ⟨3, ![4, 4096, 4096]⟩
abbrev S16384x4096 : Shape := ⟨2, ![16384, 4096]⟩
abbrev S256x4096 : Shape := ⟨2, ![256, 4096]⟩
abbrev S256x128 : Shape := ⟨2, ![256, 128]⟩

abbrev nBuf : Space → Nat
  | .hbm => 4
  | .vmem => 4
  | .smem => 0
  | _ => 0

abbrev bufTy : (tb : Table) → Fin (tcTables nBuf tb) → BufTy
  | .hbm, ⟨0, _⟩ => ⟨S4x4096x4096, .f32⟩
  | .hbm, ⟨1, _⟩ => ⟨S16384x4096, .f32⟩
  | .hbm, ⟨2, _⟩ => ⟨S16384x4096, .f32⟩
  | .hbm, ⟨3, _⟩ => ⟨S4x4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4x4096x4096_S16384x4096 : S4x4096x4096.ShapeCasts S16384x4096
  inb_S256x4096_S256x128_0_0 : ∀ a, (![0, 0] : Fin 2 → Nat) a + S256x128.size a ≤ S256x4096.size a
  h_S256x128 : 0 < S256x128.numel
  shapeCasts_S256x128_S256x128 : S256x128.ShapeCasts S256x128
  inb_S256x4096_S256x128_0_128 : ∀ a, (![0, 128] : Fin 2 → Nat) a + S256x128.size a ≤ S256x4096.size a
  inb_S256x4096_S256x128_0_256 : ∀ a, (![0, 256] : Fin 2 → Nat) a + S256x128.size a ≤ S256x4096.size a
  inb_S256x4096_S256x128_0_384 : ∀ a, (![0, 384] : Fin 2 → Nat) a + S256x128.size a ≤ S256x4096.size a
  inb_S256x4096_S256x128_0_512 : ∀ a, (![0, 512] : Fin 2 → Nat) a + S256x128.size a ≤ S256x4096.size a
  inb_S256x4096_S256x128_0_640 : ∀ a, (![0, 640] : Fin 2 → Nat) a + S256x128.size a ≤ S256x4096.size a
  inb_S256x4096_S256x128_0_768 : ∀ a, (![0, 768] : Fin 2 → Nat) a + S256x128.size a ≤ S256x4096.size a
  inb_S256x4096_S256x128_0_896 : ∀ a, (![0, 896] : Fin 2 → Nat) a + S256x128.size a ≤ S256x4096.size a
  inb_S256x4096_S256x128_0_1024 : ∀ a, (![0, 1024] : Fin 2 → Nat) a + S256x128.size a ≤ S256x4096.size a
  inb_S256x4096_S256x128_0_1152 : ∀ a, (![0, 1152] : Fin 2 → Nat) a + S256x128.size a ≤ S256x4096.size a
  inb_S256x4096_S256x128_0_1280 : ∀ a, (![0, 1280] : Fin 2 → Nat) a + S256x128.size a ≤ S256x4096.size a
  inb_S256x4096_S256x128_0_1408 : ∀ a, (![0, 1408] : Fin 2 → Nat) a + S256x128.size a ≤ S256x4096.size a
  inb_S256x4096_S256x128_0_1536 : ∀ a, (![0, 1536] : Fin 2 → Nat) a + S256x128.size a ≤ S256x4096.size a
  inb_S256x4096_S256x128_0_1664 : ∀ a, (![0, 1664] : Fin 2 → Nat) a + S256x128.size a ≤ S256x4096.size a
  inb_S256x4096_S256x128_0_1792 : ∀ a, (![0, 1792] : Fin 2 → Nat) a + S256x128.size a ≤ S256x4096.size a
  inb_S256x4096_S256x128_0_1920 : ∀ a, (![0, 1920] : Fin 2 → Nat) a + S256x128.size a ≤ S256x4096.size a
  inb_S256x4096_S256x128_0_2048 : ∀ a, (![0, 2048] : Fin 2 → Nat) a + S256x128.size a ≤ S256x4096.size a
  inb_S256x4096_S256x128_0_2176 : ∀ a, (![0, 2176] : Fin 2 → Nat) a + S256x128.size a ≤ S256x4096.size a
  inb_S256x4096_S256x128_0_2304 : ∀ a, (![0, 2304] : Fin 2 → Nat) a + S256x128.size a ≤ S256x4096.size a
  inb_S256x4096_S256x128_0_2432 : ∀ a, (![0, 2432] : Fin 2 → Nat) a + S256x128.size a ≤ S256x4096.size a
  inb_S256x4096_S256x128_0_2560 : ∀ a, (![0, 2560] : Fin 2 → Nat) a + S256x128.size a ≤ S256x4096.size a
  inb_S256x4096_S256x128_0_2688 : ∀ a, (![0, 2688] : Fin 2 → Nat) a + S256x128.size a ≤ S256x4096.size a
  inb_S256x4096_S256x128_0_2816 : ∀ a, (![0, 2816] : Fin 2 → Nat) a + S256x128.size a ≤ S256x4096.size a
  inb_S256x4096_S256x128_0_2944 : ∀ a, (![0, 2944] : Fin 2 → Nat) a + S256x128.size a ≤ S256x4096.size a
  inb_S256x4096_S256x128_0_3072 : ∀ a, (![0, 3072] : Fin 2 → Nat) a + S256x128.size a ≤ S256x4096.size a
  inb_S256x4096_S256x128_0_3200 : ∀ a, (![0, 3200] : Fin 2 → Nat) a + S256x128.size a ≤ S256x4096.size a
  inb_S256x4096_S256x128_0_3328 : ∀ a, (![0, 3328] : Fin 2 → Nat) a + S256x128.size a ≤ S256x4096.size a
  inb_S256x4096_S256x128_0_3456 : ∀ a, (![0, 3456] : Fin 2 → Nat) a + S256x128.size a ≤ S256x4096.size a
  inb_S256x4096_S256x128_0_3584 : ∀ a, (![0, 3584] : Fin 2 → Nat) a + S256x128.size a ≤ S256x4096.size a
  inb_S256x4096_S256x128_0_3712 : ∀ a, (![0, 3712] : Fin 2 → Nat) a + S256x128.size a ≤ S256x4096.size a
  inb_S256x4096_S256x128_0_3840 : ∀ a, (![0, 3840] : Fin 2 → Nat) a + S256x128.size a ≤ S256x4096.size a
  inb_S256x4096_S256x128_0_3968 : ∀ a, (![0, 3968] : Fin 2 → Nat) a + S256x128.size a ≤ S256x4096.size a
  shapeCasts_S16384x4096_S4x4096x4096 : S16384x4096.ShapeCasts S4x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S16384x32x128 : Shape := ⟨3, ![16384, 32, 128]⟩
abbrev S16384x128x32 : Shape := ⟨3, ![16384, 128, 32]⟩
abbrev S2097152x32 : Shape := ⟨2, ![2097152, 32]⟩
abbrev S2097152x32x1 : Shape := ⟨3, ![2097152, 32, 1]⟩
abbrev S2097152x16x2x1 : Shape := ⟨4, ![2097152, 16, 2, 1]⟩
abbrev S2097152x16x1x1 : Shape := ⟨4, ![2097152, 16, 1, 1]⟩
abbrev S2097152x16x1 : Shape := ⟨3, ![2097152, 16, 1]⟩
abbrev S2097152x16x2 : Shape := ⟨3, ![2097152, 16, 2]⟩
abbrev S2097152x8x2x2 : Shape := ⟨4, ![2097152, 8, 2, 2]⟩
abbrev S2097152x8x1x2 : Shape := ⟨4, ![2097152, 8, 1, 2]⟩
abbrev S2097152x8x2 : Shape := ⟨3, ![2097152, 8, 2]⟩
abbrev S2097152x8x4 : Shape := ⟨3, ![2097152, 8, 4]⟩
abbrev S2097152x4x2x4 : Shape := ⟨4, ![2097152, 4, 2, 4]⟩
abbrev S2097152x4x1x4 : Shape := ⟨4, ![2097152, 4, 1, 4]⟩
abbrev S2097152x4x4 : Shape := ⟨3, ![2097152, 4, 4]⟩
abbrev S2097152x4x8 : Shape := ⟨3, ![2097152, 4, 8]⟩
abbrev S2097152x2x2x8 : Shape := ⟨4, ![2097152, 2, 2, 8]⟩
abbrev S2097152x2x1x8 : Shape := ⟨4, ![2097152, 2, 1, 8]⟩
abbrev S2097152x2x8 : Shape := ⟨3, ![2097152, 2, 8]⟩
abbrev S2097152x2x16 : Shape := ⟨3, ![2097152, 2, 16]⟩
abbrev S2097152x1x2x16 : Shape := ⟨4, ![2097152, 1, 2, 16]⟩
abbrev S2097152x1x1x16 : Shape := ⟨4, ![2097152, 1, 1, 16]⟩
abbrev S2097152x1x16 : Shape := ⟨3, ![2097152, 1, 16]⟩
abbrev S2097152x1x32 : Shape := ⟨3, ![2097152, 1, 32]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S16384x32x128, .f32⟩
  | .hbm, ⟨2, _⟩ => ⟨S16384x128x32, .f32⟩
  | .hbm, ⟨3, _⟩ => ⟨S2097152x32, .f32⟩
  | .hbm, ⟨4, _⟩ => ⟨S2097152x32x1, .f32⟩
  | .hbm, ⟨5, _⟩ => ⟨S2097152x16x2x1, .f32⟩
  | .hbm, ⟨6, _⟩ => ⟨S2097152x16x1x1, .f32⟩
  | .hbm, ⟨7, _⟩ => ⟨S2097152x16x1, .f32⟩
  | .hbm, ⟨8, _⟩ => ⟨S2097152x16x1x1, .f32⟩
  | .hbm, ⟨9, _⟩ => ⟨S2097152x16x1, .f32⟩
  | .hbm, ⟨10, _⟩ => ⟨S2097152x16x1, .f32⟩
  | .hbm, ⟨11, _⟩ => ⟨S2097152x16x1, .f32⟩
  | .hbm, ⟨12, _⟩ => ⟨S2097152x16x1x1, .f32⟩
  | .hbm, ⟨13, _⟩ => ⟨S2097152x16x1x1, .f32⟩
  | .hbm, ⟨14, _⟩ => ⟨S2097152x16x2x1, .f32⟩
  | .hbm, ⟨15, _⟩ => ⟨S2097152x16x2, .f32⟩
  | .hbm, ⟨16, _⟩ => ⟨S2097152x8x2x2, .f32⟩
  | .hbm, ⟨17, _⟩ => ⟨S2097152x8x1x2, .f32⟩
  | .hbm, ⟨18, _⟩ => ⟨S2097152x8x2, .f32⟩
  | .hbm, ⟨19, _⟩ => ⟨S2097152x8x1x2, .f32⟩
  | .hbm, ⟨20, _⟩ => ⟨S2097152x8x2, .f32⟩
  | .hbm, ⟨21, _⟩ => ⟨S2097152x8x2, .f32⟩
  | .hbm, ⟨22, _⟩ => ⟨S2097152x8x2, .f32⟩
  | .hbm, ⟨23, _⟩ => ⟨S2097152x8x1x2, .f32⟩
  | .hbm, ⟨24, _⟩ => ⟨S2097152x8x1x2, .f32⟩
  | .hbm, ⟨25, _⟩ => ⟨S2097152x8x2x2, .f32⟩
  | .hbm, ⟨26, _⟩ => ⟨S2097152x8x4, .f32⟩
  | .hbm, ⟨27, _⟩ => ⟨S2097152x4x2x4, .f32⟩
  | .hbm, ⟨28, _⟩ => ⟨S2097152x4x1x4, .f32⟩
  | .hbm, ⟨29, _⟩ => ⟨S2097152x4x4, .f32⟩
  | .hbm, ⟨30, _⟩ => ⟨S2097152x4x1x4, .f32⟩
  | .hbm, ⟨31, _⟩ => ⟨S2097152x4x4, .f32⟩
  | .hbm, ⟨32, _⟩ => ⟨S2097152x4x4, .f32⟩
  | .hbm, ⟨33, _⟩ => ⟨S2097152x4x4, .f32⟩
  | .hbm, ⟨34, _⟩ => ⟨S2097152x4x1x4, .f32⟩
  | .hbm, ⟨35, _⟩ => ⟨S2097152x4x1x4, .f32⟩
  | .hbm, ⟨36, _⟩ => ⟨S2097152x4x2x4, .f32⟩
  | .hbm, ⟨37, _⟩ => ⟨S2097152x4x8, .f32⟩
  | .hbm, ⟨38, _⟩ => ⟨S2097152x2x2x8, .f32⟩
  | .hbm, ⟨39, _⟩ => ⟨S2097152x2x1x8, .f32⟩
  | .hbm, ⟨40, _⟩ => ⟨S2097152x2x8, .f32⟩
  | .hbm, ⟨41, _⟩ => ⟨S2097152x2x1x8, .f32⟩
  | .hbm, ⟨42, _⟩ => ⟨S2097152x2x8, .f32⟩
  | .hbm, ⟨43, _⟩ => ⟨S2097152x2x8, .f32⟩
  | .hbm, ⟨44, _⟩ => ⟨S2097152x2x8, .f32⟩
  | .hbm, ⟨45, _⟩ => ⟨S2097152x2x1x8, .f32⟩
  | .hbm, ⟨46, _⟩ => ⟨S2097152x2x1x8, .f32⟩
  | .hbm, ⟨47, _⟩ => ⟨S2097152x2x2x8, .f32⟩
  | .hbm, ⟨48, _⟩ => ⟨S2097152x2x16, .f32⟩
  | .hbm, ⟨49, _⟩ => ⟨S2097152x1x2x16, .f32⟩
  | .hbm, ⟨50, _⟩ => ⟨S2097152x1x1x16, .f32⟩
  | .hbm, ⟨51, _⟩ => ⟨S2097152x1x16, .f32⟩
  | .hbm, ⟨52, _⟩ => ⟨S2097152x1x1x16, .f32⟩
  | .hbm, ⟨53, _⟩ => ⟨S2097152x1x16, .f32⟩
  | .hbm, ⟨54, _⟩ => ⟨S2097152x1x16, .f32⟩
  | .hbm, ⟨55, _⟩ => ⟨S2097152x1x16, .f32⟩
  | .hbm, ⟨56, _⟩ => ⟨S2097152x1x1x16, .f32⟩
  | .hbm, ⟨57, _⟩ => ⟨S2097152x1x1x16, .f32⟩
  | .hbm, ⟨58, _⟩ => ⟨S2097152x1x2x16, .f32⟩
  | .hbm, ⟨59, _⟩ => ⟨S2097152x1x32, .f32⟩
  | .hbm, ⟨60, _⟩ => ⟨S2097152x32, .f32⟩
  | .hbm, ⟨61, _⟩ => ⟨S_, .f32⟩
  | .hbm, ⟨62, _⟩ => ⟨S2097152x32, .f32⟩
  | .hbm, ⟨63, _⟩ => ⟨S2097152x32, .f32⟩
  | .hbm, ⟨64, _⟩ => ⟨S16384x128x32, .f32⟩
  | .hbm, ⟨65, _⟩ => ⟨S16384x32x128, .f32⟩
  | .hbm, ⟨66, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_cst : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩

abbrev nD : Nat := 1
abbrev τ : Topo := Topo.v7x

variable {F : FTy → Type} [FloatOps F]

class Facts₀ : Prop where
  shapeCasts_S4x4096x4096_S16384x32x128 : S4x4096x4096.ShapeCasts S16384x32x128
  transposes_S16384x32x128_S16384x128x32_0_2_1 : S16384x32x128.Transposes [0, 2, 1] S16384x128x32
  shapeCasts_S16384x128x32_S2097152x32 : S16384x128x32.ShapeCasts S2097152x32
  bcast_S2097152x32_S2097152x32x1_0_1 : S2097152x32.BroadcastsInDim S2097152x32x1 (![0, 1] : Fin 2 → Fin S2097152x32x1.rank)
  shapeCasts_S2097152x32x1_S2097152x16x2x1 : S2097152x32x1.ShapeCasts S2097152x16x2x1
  slices_S2097152x16x2x1_S2097152x16x1x1_0_0_0_0 : S2097152x16x2x1.Slices ![0, 0, 0, 0] S2097152x16x1x1
  shapeCasts_S2097152x16x1x1_S2097152x16x1 : S2097152x16x1x1.ShapeCasts S2097152x16x1
  slices_S2097152x16x2x1_S2097152x16x1x1_0_0_1_0 : S2097152x16x2x1.Slices ![0, 0, 1, 0] S2097152x16x1x1
  bcast_S2097152x16x1_S2097152x16x1x1_0_1_3 : S2097152x16x1.BroadcastsInDim S2097152x16x1x1 (![0, 1, 3] : Fin 3 → Fin S2097152x16x1x1.rank)
  concatenates_S2097152x16x1x1_S2097152x16x1x1_S2097152x16x2x1_d2 : Shape.Concatenates [S2097152x16x1x1, S2097152x16x1x1] S2097152x16x2x1 2
  shapeCasts_S2097152x16x2x1_S2097152x16x2 : S2097152x16x2x1.ShapeCasts S2097152x16x2
  shapeCasts_S2097152x16x2_S2097152x8x2x2 : S2097152x16x2.ShapeCasts S2097152x8x2x2
  slices_S2097152x8x2x2_S2097152x8x1x2_0_0_0_0 : S2097152x8x2x2.Slices ![0, 0, 0, 0] S2097152x8x1x2
  shapeCasts_S2097152x8x1x2_S2097152x8x2 : S2097152x8x1x2.ShapeCasts S2097152x8x2
  slices_S2097152x8x2x2_S2097152x8x1x2_0_0_1_0 : S2097152x8x2x2.Slices ![0, 0, 1, 0] S2097152x8x1x2
  bcast_S2097152x8x2_S2097152x8x1x2_0_1_3 : S2097152x8x2.BroadcastsInDim S2097152x8x1x2 (![0, 1, 3] : Fin 3 → Fin S2097152x8x1x2.rank)
  concatenates_S2097152x8x1x2_S2097152x8x1x2_S2097152x8x2x2_d2 : Shape.Concatenates [S2097152x8x1x2, S2097152x8x1x2] S2097152x8x2x2 2
  shapeCasts_S2097152x8x2x2_S2097152x8x4 : S2097152x8x2x2.ShapeCasts S2097152x8x4
  shapeCasts_S2097152x8x4_S2097152x4x2x4 : S2097152x8x4.ShapeCasts S2097152x4x2x4
  slices_S2097152x4x2x4_S2097152x4x1x4_0_0_0_0 : S2097152x4x2x4.Slices ![0, 0, 0, 0] S2097152x4x1x4
  shapeCasts_S2097152x4x1x4_S2097152x4x4 : S2097152x4x1x4.ShapeCasts S2097152x4x4
  slices_S2097152x4x2x4_S2097152x4x1x4_0_0_1_0 : S2097152x4x2x4.Slices ![0, 0, 1, 0] S2097152x4x1x4
  bcast_S2097152x4x4_S2097152x4x1x4_0_1_3 : S2097152x4x4.BroadcastsInDim S2097152x4x1x4 (![0, 1, 3] : Fin 3 → Fin S2097152x4x1x4.rank)
  concatenates_S2097152x4x1x4_S2097152x4x1x4_S2097152x4x2x4_d2 : Shape.Concatenates [S2097152x4x1x4, S2097152x4x1x4] S2097152x4x2x4 2
  shapeCasts_S2097152x4x2x4_S2097152x4x8 : S2097152x4x2x4.ShapeCasts S2097152x4x8
  shapeCasts_S2097152x4x8_S2097152x2x2x8 : S2097152x4x8.ShapeCasts S2097152x2x2x8
  slices_S2097152x2x2x8_S2097152x2x1x8_0_0_0_0 : S2097152x2x2x8.Slices ![0, 0, 0, 0] S2097152x2x1x8
  shapeCasts_S2097152x2x1x8_S2097152x2x8 : S2097152x2x1x8.ShapeCasts S2097152x2x8
  slices_S2097152x2x2x8_S2097152x2x1x8_0_0_1_0 : S2097152x2x2x8.Slices ![0, 0, 1, 0] S2097152x2x1x8
  bcast_S2097152x2x8_S2097152x2x1x8_0_1_3 : S2097152x2x8.BroadcastsInDim S2097152x2x1x8 (![0, 1, 3] : Fin 3 → Fin S2097152x2x1x8.rank)
  concatenates_S2097152x2x1x8_S2097152x2x1x8_S2097152x2x2x8_d2 : Shape.Concatenates [S2097152x2x1x8, S2097152x2x1x8] S2097152x2x2x8 2
  shapeCasts_S2097152x2x2x8_S2097152x2x16 : S2097152x2x2x8.ShapeCasts S2097152x2x16
  shapeCasts_S2097152x2x16_S2097152x1x2x16 : S2097152x2x16.ShapeCasts S2097152x1x2x16
  slices_S2097152x1x2x16_S2097152x1x1x16_0_0_0_0 : S2097152x1x2x16.Slices ![0, 0, 0, 0] S2097152x1x1x16
  shapeCasts_S2097152x1x1x16_S2097152x1x16 : S2097152x1x1x16.ShapeCasts S2097152x1x16
  slices_S2097152x1x2x16_S2097152x1x1x16_0_0_1_0 : S2097152x1x2x16.Slices ![0, 0, 1, 0] S2097152x1x1x16
  bcast_S2097152x1x16_S2097152x1x1x16_0_1_3 : S2097152x1x16.BroadcastsInDim S2097152x1x1x16 (![0, 1, 3] : Fin 3 → Fin S2097152x1x1x16.rank)
  concatenates_S2097152x1x1x16_S2097152x1x1x16_S2097152x1x2x16_d2 : Shape.Concatenates [S2097152x1x1x16, S2097152x1x1x16] S2097152x1x2x16 2
  shapeCasts_S2097152x1x2x16_S2097152x1x32 : S2097152x1x2x16.ShapeCasts S2097152x1x32
  shapeCasts_S2097152x1x32_S2097152x32 : S2097152x1x32.ShapeCasts S2097152x32
  bcast_S_S2097152x32 : S_.BroadcastsInDim S2097152x32 (![] : Fin 0 → Fin S2097152x32.rank)
  shapeCasts_S2097152x32_S16384x128x32 : S2097152x32.ShapeCasts S16384x128x32
  transposes_S16384x128x32_S16384x32x128_0_2_1 : S16384x128x32.Transposes [0, 2, 1] S16384x32x128
  shapeCasts_S16384x32x128_S4x4096x4096 : S16384x32x128.ShapeCasts S4x4096x4096

variable [Facts₀]

class Facts : Prop extends Facts₀ where

variable [Facts]
-- ==== Proof.Hadamard.lean ====
/-
  The specification: a Walsh–Hadamard transform across the 32 heads of each position.

  The last axis of a [4, 4096, 4096] array is 32 heads of 128 lanes: column `h * 128 + d` is lane `d` of head `h`.
  For a fixed position `(a, b)` and lane `d`, the 32 values `x (a, b, h * 128 + d)`, `h < 32`, form a row, and the
  result's 32 values at that position and lane are the row's transform, scaled by one fixed number.

  The transform is five butterfly stages of strides 1, 2, 4, 8, 16. A stage of stride `c` pairs the entries whose
  numbers differ in the bit of weight `c`: the one with the bit clear receives the sum of the pair, the one with the
  bit set receives the difference (clear minus set). Nothing is assumed of the entries: the sums and differences are
  those of the extended reals, taken in exactly this order, and the scale multiplies on the right.
-/
import Idealize.ShloMosaic.PureOps.Ideal
import Idealize.ShloMosaic.Lib.ValueIdx

noncomputable section

namespace Cert.Hadamard

open Idealize.ShloMosaic Idealize.ShloMosaic.ValueIdx

/-- One butterfly stage of stride `c` on a row indexed by the naturals: entry `j` with the bit of weight `c` clear
    is `y j + y (j + c)`, with it set `y (j - c) - y j`. -/
def bfly (c : ℕ) (y : ℕ → EReal) (j : ℕ) : EReal :=
  if (j / c) % 2 = 0 then y j + y (j + c) else y (j - c) - y j

/-- The five stages, strides 1, 2, 4, 8, 16 in that order. -/
def wht (y : ℕ → EReal) : ℕ → EReal := bfly 16 (bfly 8 (bfly 4 (bfly 2 (bfly 1 y))))

/-- The scale, the one 32-bit float word both programs multiply by (it is never evaluated). -/
def scale : EReal := Ideal.ofBits .f32 0x3E3504F3#32

/-- The row of position `(a, b)` and lane `d`: entry `h` is the array at column `h * 128 + d` (zero past the 32 heads,
    which no stage of the transform of an entry below 32 reads). -/
def row (x : (⟨3, ![4, 4096, 4096]⟩ : Shape).Idx → EReal) (a : Fin 4) (b : Fin 4096) (d : Fin 128) (h : ℕ) : EReal :=
  if hh : h < 32 then x (ix3 a b ⟨h * 128 + d.val, by omega⟩) else 0

/-- The result array as one function of the argument array: at column `col` of position `(a, b)`, entry `col / 128`
    of the transform of the row of lane `col % 128`, times the scale. -/
def G (x : (⟨3, ![4, 4096, 4096]⟩ : Shape).Idx → EReal) (i : (⟨3, ![4, 4096, 4096]⟩ : Shape).Idx) : EReal :=
  wht (row x (i 0) (i 1) ⟨(i 2).val % 128, Nat.mod_lt _ (by norm_num)⟩) ((i 2).val / 128) * scale

/-- `G` at the column of head `j` and lane `d`. -/
theorem G_at (x : (⟨3, ![4, 4096, 4096]⟩ : Shape).Idx → EReal) (a : Fin 4) (b : Fin 4096) (j : Fin 32) (d : Fin 128) :
    G x (ix3 a b ⟨j.val * 128 + d.val, by omega⟩) = wht (row x a b d) j.val * scale := by
  have hd : (⟨(j.val * 128 + d.val) % 128, Nat.mod_lt _ (by norm_num)⟩ : Fin 128) = d := Fin.ext (by show (j.val * 128 + d.val) % 128 = d.val; omega)
  have hj : (j.val * 128 + d.val) / 128 = j.val := by omega
  show wht (row x a b ⟨(j.val * 128 + d.val) % 128, _⟩) ((j.val * 128 + d.val) / 128) * scale = _
  rw [hd, hj]

end Cert.Hadamard

end
-- ==== Proof.Block.lean ====
/-
  What the body leaves in one output block, entry by entry.

  A block is 256 rows of the 4096 columns. The body loads the block's 32 head chunks — chunk `h` is columns
  `h * 128 … h * 128 + 127` — combines them by additions and subtractions of whole chunks, multiplies each of the 32
  results by the scale, and stores result `j` over columns `j * 128 … j * 128 + 127`. Read at row `r` and column
  `j * 128 + d` the block therefore holds entry `j` of the transform of the row `h ↦ block (r, h * 128 + d)`,
  times the scale: for each `j` the body's tree of sums and differences is, node for node, the five butterfly
  stages evaluated at `j`. The 32 stores tile the block, so this describes every entry.
-/
import proofs.«177979_j46153718563373_2_alg».proof.Proof.Gen.KernelIdeal.Frame
import proofs.«177979_j46153718563373_2_alg».proof.Proof.Hadamard
import Idealize.ShloMosaic.Lib.Pipeline.Value
import Idealize.ShloMosaic.Lib.ValueIdx

set_option maxRecDepth 16384

noncomputable section

namespace Cert.Hadamard.Block

open Idealize.ShloMosaic Idealize.ShloMosaic.ValueIdx Cert.KernelIdeal Cert.KernelIdeal.Gen Cert.Hadamard

/-- The row of block row `r` and lane `d`: entry `h` is the block at column `h * 128 + d`. -/
def blockRow (X : Vec Ideal S256x4096 .f32) (r : Fin 256) (d : Fin 128) (h : ℕ) : EReal :=
  if hh : h < 32 then X (ix2 r ⟨h * 128 + d.val, by omega⟩) else 0

/-- The block the body leaves, as one function of the block it loads. -/
def GB (X : Vec Ideal S256x4096 .f32) (y : S256x4096.Idx) : EReal :=
  wht (blockRow X (y 0) ⟨(y 1).val % 128, Nat.mod_lt _ (by norm_num)⟩) ((y 1).val / 128) * scale

/-- A chunk load read at an entry: the block at the same row, the column moved by the chunk's offset. -/
theorem ld_chunk (X : Vec Ideal S256x4096 .f32) (off1 : ℕ)
    (inb : ∀ a, (![0, off1] : Fin 2 → ℕ) a + S256x128.size a ≤ S256x4096.size a) (x : S256x128.Idx) :
    X ((Rect.unit (s := S256x4096) ![0, off1] S256x128.size inb).idx x)
      = X (ix2 (x 0) ⟨off1 + (x 1).val, by
          have h1 : off1 + 128 ≤ 4096 := inb 1
          have hx : (x 1).val < 128 := (x 1).isLt
          omega⟩) := by
  refine congrArg X (funext fun a => Fin.ext ?_)
  match a with
  | ⟨0, _⟩ => show 0 + 1 * (x 0).val = (x 0).val; omega
  | ⟨1, _⟩ => show off1 + 1 * (x 1).val = off1 + (x 1).val; omega

/-- The block function read through the rectangle of the store at column offset `off1`, a multiple of 128: entry
    `off1 / 128` of the transform of the row of the local row and lane. -/
theorem GB_emb (X : Vec Ideal S256x4096 .f32) (off1 : ℕ)
    (inb : ∀ a, (![0, off1] : Fin 2 → ℕ) a + S256x128.size a ≤ S256x4096.size a) (x : S256x128.Idx)
    (hdvd : off1 % 128 = 0) :
    GB X ((Rect.unit (s := S256x4096) ![0, off1] S256x128.size inb).emb x)
      = wht (blockRow X (x 0) (x 1)) (off1 / 128) * scale := by
  have hx1 : (x 1).val < 128 := (x 1).isLt
  have e0 : ((Rect.unit (s := S256x4096) ![0, off1] S256x128.size inb).emb x) 0 = x 0 :=
    Fin.ext (by show 0 + 1 * (x 0).val = (x 0).val; omega)
  have e1 : (((Rect.unit (s := S256x4096) ![0, off1] S256x128.size inb).emb x) 1).val = off1 + (x 1).val := by
    show off1 + 1 * (x 1).val = _; omega
  have hd : (⟨(((Rect.unit (s := S256x4096) ![0, off1] S256x128.size inb).emb x) 1).val % 128, Nat.mod_lt _ (by norm_num)⟩ : Fin 128) = x 1 :=
    Fin.ext (by show (((Rect.unit (s := S256x4096) ![0, off1] S256x128.size inb).emb x) 1).val % 128 = (x 1).val; rw [e1]; omega)
  have hq : (((Rect.unit (s := S256x4096) ![0, off1] S256x128.size inb).emb x) 1).val / 128 = off1 / 128 := by
    rw [e1]; omega
  show wht (blockRow X (((Rect.unit (s := S256x4096) ![0, off1] S256x128.size inb).emb x) 0)
      ⟨(((Rect.unit (s := S256x4096) ![0, off1] S256x128.size inb).emb x) 1).val % 128, _⟩)
      ((((Rect.unit (s := S256x4096) ![0, off1] S256x128.size inb).emb x) 1).val / 128) * scale = _
  rw [e0, hd, hq]

/-- The kernel's scalar constant at the ideal instance is the word's value. -/
theorem scalar_word (w : BitVec 32) : Scalar.ofBits (F := Ideal) .f32 w = Ideal.ofBits .f32 w := rfl

set_option maxHeartbeats 4000000 in
/-- THE BLOCK: what the body leaves is `GB` of what it loaded. Each store's payload, read at a local entry, is the
    store's entry of the transform of that entry's row; the stores tile the block. -/
theorem out_eq (X : Vec Ideal S256x4096 .f32) : out0_1 (F := Ideal) X = GB X := by
  funext y
  unfold out0_1
  refine View.canon_apply_of_pieces (Val := Elt Ideal) (GB X) _ ?_ y (cover0_1 _ _ _ _ _ _ _ _ _ _ _ _ _ _ _ _ _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    intro x
    dsimp only
    refine Eq.trans ?_ (GB_emb X _ _ x (by norm_num)).symm
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196,
      shapeCast_self, addf_apply, subf_apply, mulf_apply, broadcast_apply, scalar_word, View.ld,
      ld_chunk X,
      wht, bfly, blockRow, scale,
      Nat.reduceDiv, Nat.reduceMod, Nat.reduceAdd, Nat.reduceSub, Nat.reduceMul, Nat.reduceLT, Nat.reduceEqDiff,
      reduceIte, reduceDIte]

end Cert.Hadamard.Block

end
-- ==== Proof.Reshape.lean ====
/-
  The transform on the array laid out as 16384 positions by 4096 columns, and the two reshapes around it.

  The kernel's program views the [4, 4096, 4096] argument as [16384, 4096] — position `(a, b)` becomes row
  `a * 4096 + b`, the columns are kept — transforms every row's 32 heads lane by lane, and views the result back as
  [4, 4096, 4096]. A reshape keeps an entry's place in row-major order, so entry `(a, b, col)` of the result is
  entry `(a * 4096 + b, col)` of the transformed matrix, whose row reads the argument at `(a, b, ·)`: the whole is the
  specification's function of the argument.
-/
import proofs.«177979_j46153718563373_2_alg».proof.Proof.Hadamard
import Idealize.ShloMosaic.Lib.Pipeline.Value
import Idealize.ShloMosaic.Lib.ValueIdx

noncomputable section

namespace Cert.Hadamard

open Idealize.ShloMosaic Idealize.ShloMosaic.ValueIdx

/-- The matrix shape and the argument's shape, as literals. -/
abbrev SMat : Shape := ⟨2, ![16384, 4096]⟩
abbrev SArg : Shape := ⟨3, ![4, 4096, 4096]⟩

/-- The row of matrix row `t` and lane `d`: entry `h` is the matrix at column `h * 128 + d`. -/
def row2 (A : SMat.Idx → EReal) (t : Fin 16384) (d : Fin 128) (h : ℕ) : EReal :=
  if hh : h < 32 then A (ix2 t ⟨h * 128 + d.val, by omega⟩) else 0

/-- The transformed matrix as one function of the matrix. -/
def G2 (A : SMat.Idx → EReal) (i : SMat.Idx) : EReal :=
  wht (row2 A (i 0) ⟨(i 1).val % 128, Nat.mod_lt _ (by norm_num)⟩) ((i 1).val / 128) * scale

/-- `G2` at the column of head `j` and lane `d`. -/
theorem G2_at (A : SMat.Idx → EReal) (t : Fin 16384) (j : Fin 32) (d : Fin 128) :
    G2 A (ix2 t ⟨j.val * 128 + d.val, by omega⟩) = wht (row2 A t d) j.val * scale := by
  have hd : (⟨(j.val * 128 + d.val) % 128, Nat.mod_lt _ (by norm_num)⟩ : Fin 128) = d :=
    Fin.ext (by show (j.val * 128 + d.val) % 128 = d.val; omega)
  have hj : (j.val * 128 + d.val) / 128 = j.val := by omega
  show wht (row2 A t ⟨(j.val * 128 + d.val) % 128, _⟩) ((j.val * 128 + d.val) / 128) * scale = _
  rw [hd, hj]

/-- The column of head `j` and lane `d` is a column. -/
theorem col_lt (j : Fin 32) (d : Fin 128) : j.val * 128 + d.val < 4096 := by omega

/-- The argument viewed as a matrix, read at an entry: position `(a, b)` is row `a * 4096 + b`. -/
theorem asMat_apply (x : SArg.Idx → EReal) (h : SArg.ShapeCasts SMat) (a : Fin 4) (b : Fin 4096) (col : Fin 4096) :
    shapeCast SMat x h (ix2 ⟨a.val * 4096 + b.val, by omega⟩ col) = x (ix3 a b col) := by
  refine shapeCast_apply x h _ _ ?_
  rw [Shape.rowMajor_val_three, Shape.rowMajor_val_two]
  show (a.val * 4096 + b.val) * 4096 + col.val = (a.val * 4096 + b.val) * 4096 + col.val
  rfl

/-- Reshape, transform the rows, reshape back: the specification's function of the argument. -/
theorem reshape_G2 (x : SArg.Idx → EReal) (h : SArg.ShapeCasts SMat) (h' : SMat.ShapeCasts SArg) :
    shapeCast SArg (G2 (shapeCast SMat x h)) h' = G x := by
  funext i
  obtain ⟨a, b, cc, rfl⟩ : ∃ (a : Fin 4) (b : Fin 4096) (cc : Fin 4096), i = ix3 a b cc := ⟨i 0, i 1, i 2, eq_ix3 i⟩
  obtain ⟨j, d, hjd⟩ : ∃ (j : Fin 32) (d : Fin 128), cc.val = j.val * 128 + d.val :=
    ⟨⟨cc.val / 128, by omega⟩, ⟨cc.val % 128, by omega⟩, by show cc.val = cc.val / 128 * 128 + cc.val % 128; omega⟩
  obtain rfl : cc = ⟨j.val * 128 + d.val, col_lt j d⟩ := Fin.ext hjd
  rw [G_at]
  refine (shapeCast_apply (G2 (shapeCast SMat x h)) h' _ (ix2 ⟨a.val * 4096 + b.val, by omega⟩ ⟨j.val * 128 + d.val, by omega⟩) ?_).trans ?_
  · rw [Shape.rowMajor_val_two, Shape.rowMajor_val_three]
    show (a.val * 4096 + b.val) * 4096 + (j.val * 128 + d.val) = (a.val * 4096 + b.val) * 4096 + (j.val * 128 + d.val)
    rfl
  · rw [G2_at]
    have hrow : row2 (shapeCast SMat x h) ⟨a.val * 4096 + b.val, by omega⟩ d = row x a b d := by
      funext hh
      unfold row2 row
      by_cases hlt : hh < 32
      · rw [dif_pos hlt, dif_pos hlt]
        exact asMat_apply x h a b ⟨hh * 128 + d.val, by omega⟩
      · rw [dif_neg hlt, dif_neg hlt]
    rw [hrow]

end Cert.Hadamard

end
-- ==== Proof.Blocks.lean ====
/-
  From the blocks to the whole matrix.

  The grid has 64 points; point `t` stages rows `256 * t … 256 * t + 255` of the input matrix, all 4096 columns, and
  writes back the same rows of the output matrix. What the body leaves at a point is the block function of the block
  it loaded (module Block); a block's row `r` is matrix row `256 * t + r` and the columns are not moved, so the
  block the point writes back is that block of the transformed matrix `G2` of the input matrix. Every matrix row lies
  in the block of point `row / 256`, so after the last point the output matrix is `G2` of the input matrix.
-/
import proofs.«177979_j46153718563373_2_alg».proof.Proof.Gen.KernelIdeal.Frame
import proofs.«177979_j46153718563373_2_alg».proof.Proof.Block
import proofs.«177979_j46153718563373_2_alg».proof.Proof.Reshape
import Idealize.ShloMosaic.Lib.Pipeline.Value
import Idealize.ShloMosaic.Lib.ValueIdx

set_option maxRecDepth 16384

noncomputable section

namespace Cert.Hadamard.Blocks

open Idealize.ShloMosaic Idealize.ShloMosaic.TcCoe Idealize.ShloMosaic.ValueIdx Idealize.SL.Sem
open Cert.KernelIdeal Cert.KernelIdeal.Gen Cert.Hadamard Cert.Hadamard.Block
open Idealize.ShloMosaic.Pipeline (Dat)

variable (m : (ℓ : Loc nD τ sig) → Buf (Elt Ideal) ℓ)

/-- The printed index maps over the grid: both windows are at block row `t`'s own number, which is below 64, and at
    block column 0. -/
theorem idx_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 63 :=
  (by decide +kernel : ∀ t : Fin grid0.N, _)

/-- Every block row is some point's. -/
theorem idx_onto : ∀ q : Fin 64, ∃ t : Fin cfg0.N, win0_1.index t = ![q.val, 0] :=
  (by decide +kernel : ∀ q : Fin 64, ∃ t : Fin grid0.N, win0_1.index t = ![q.val, 0])

/-- The block function of a block that is rows `q * 256 …` of a matrix is that block of `G2` of the matrix. -/
theorem GB_eq_G2 (X : Vec Ideal S256x4096 .f32) (A : SMat.Idx → EReal) (q : ℕ) (hq : q ≤ 63)
    (hX : ∀ (r : Fin 256) (col : Fin 4096), X (ix2 r col) = A (ix2 ⟨q * 256 + r.val, by omega⟩ col))
    (r : Fin 256) (col : Fin 4096) :
    GB X (ix2 r col) = G2 A (ix2 ⟨q * 256 + r.val, by omega⟩ col) := by
  show wht (blockRow X r ⟨col.val % 128, _⟩) (col.val / 128) * scale
      = wht (row2 A ⟨q * 256 + r.val, _⟩ ⟨col.val % 128, _⟩) (col.val / 128) * scale
  have hrow : blockRow X r ⟨col.val % 128, Nat.mod_lt _ (by norm_num)⟩
      = row2 A ⟨q * 256 + r.val, by omega⟩ ⟨col.val % 128, Nat.mod_lt _ (by norm_num)⟩ := by
    funext h
    unfold blockRow row2
    by_cases hh : h < 32
    · rw [dif_pos hh, dif_pos hh]; exact hX _ _
    · rw [dif_neg hh, dif_neg hh]
  rw [hrow]

/-- The input block at point `t`, read at an entry: the input matrix at row `256 * (block row) + r`. -/
theorem iblk_read (c : Dev nD) (t : Fin cfg0.N) (r : Fin 256) (col : Fin 4096) :
    iblk m c 0 t (ix2 r col)
      = V m c main_v0 (ix2 ⟨win0_1.index t (0 : Fin 2) * 256 + r.val, by have := (idx_facts t).2.2.2; omega⟩ col) := by
  obtain ⟨e0, e1, e2, e3⟩ := idx_facts t
  show V m c main_v0 (((cfg0.win 0).blk t).view.emb (ix2 r col)) = _
  refine congrArg (V m c main_v0) (funext fun a => Fin.ext ?_)
  match a with
  | ⟨0, _⟩ => show win0_0.index t (0 : Fin 2) * 256 + 1 * r.val = win0_1.index t (0 : Fin 2) * 256 + r.val; omega
  | ⟨1, _⟩ => show win0_0.index t (1 : Fin 2) * 4096 + 1 * col.val = col.val; omega

/-- WHAT POINT `t` WRITES BACK is block `t` of `G2` of the input matrix as the region finds it. -/
theorem flushed_eq (c : Dev nD) (t : Fin cfg0.N) :
    (dats m 0 c).flushed 1 t = ((cfg0.win 1).blk t).view.read (Elt Ideal) (G2 (V m c main_v0)) := by
  show (cfg0.win 1).cut (grid0.coords t) ((dats m 0 c).after 1 t) = _
  rw [after0_1, Block.out_eq (iblk m c 0 t)]
  obtain ⟨e0, e1, e2, e3⟩ := idx_facts t
  funext j
  obtain ⟨r, col, rfl⟩ : ∃ (r : Fin 256) (col : Fin 4096), j = ix2 r col := ⟨j 0, j 1, eq_ix2 j⟩
  show GB (iblk m c 0 t) (ix2 r col) = G2 (V m c main_v0) (((cfg0.win 1).blk t).view.emb (ix2 r col))
  refine (GB_eq_G2 (iblk m c 0 t) (V m c main_v0) (win0_1.index t (0 : Fin 2)) e3 (iblk_read m c t) r col).trans ?_
  refine congrArg (G2 (V m c main_v0)) (funext fun a => Fin.ext ?_)
  match a with
  | ⟨0, _⟩ => show win0_1.index t (0 : Fin 2) * 256 + r.val = win0_1.index t (0 : Fin 2) * 256 + 1 * r.val; omega
  | ⟨1, _⟩ => show col.val = win0_1.index t (1 : Fin 2) * 4096 + 1 * col.val; omega

/-- An index of the output matrix is in point `t`'s block iff each coordinate is in the block's range on its axis. -/
theorem mem_blk (t : Fin cfg0.N) (i : S16384x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v1).slice (win0_1.rect t)).set ↔ _
  rw [View.set_slice_whole, Rect.mem_set_unit]
  exact Iff.rfl

/-- Every index of the output matrix is in some point's block: the point whose block row is `row / 256`. -/
theorem cover (i : S16384x4096.Idx) :
    ∃ t : Fin cfg0.N, (cfg0.win 1).flush t = true ∧ i ∈ ((cfg0.win 1).blk t).view.set := by
  have hi0 : (i 0).val < 16384 := (i 0).isLt
  have hi1 : (i 1).val < 4096 := (i 1).isLt
  obtain ⟨t, ht⟩ := idx_onto ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 4096 ≤ (i 1).val ∧ (i 1).val < win0_1.index t (1 : Fin 2) * 4096 + 4096; omega

/-- THE OUTPUT MATRIX after the last point: `G2` of the input matrix as the region finds it. -/
theorem final (c : Dev nD) : (dats m 0 c).arrAt 1 cfg0.N = G2 (V m c main_v0) :=
  (dats m 0 c).arrAt_eq_of_cover 1 (G2 (V m c main_v0)) (fun t _ => flushed_eq m c t) cover

end Cert.Hadamard.Blocks

end
-- ==== Proof.KernelRun.lean ====
/-
  The kernel's whole program: reshape, the pipelined transform, reshape back.

  Before the region one host line views the argument as the [16384, 4096] matrix; the region turns it into the
  transformed matrix (module Blocks); after the region one host line views that matrix as [4, 4096, 4096]. So the
  result buffer ends at the specification's function `G` of the argument, and the argument is never written.
-/
import proofs.«177979_j46153718563373_2_alg».proof.Proof.Gen.KernelIdeal.Frame
import proofs.«177979_j46153718563373_2_alg».proof.Proof.Blocks
import proofs.«177979_j46153718563373_2_alg».proof.Proof.Reshape
import Idealize.ShloMosaic.Lib.Pipeline.FrameSuffix
import Idealize.ShloMosaic.Lib.StableHlo.Run

set_option maxRecDepth 16384

noncomputable section

namespace Cert.Hadamard.KernelRun

open Idealize.ShloMosaic Idealize.ShloMosaic.TcCoe Idealize.ShloMosaic.ValueIdx Idealize.SL.Sem Idealize.ShloMosaic.StableHlo
open Cert.KernelIdeal Cert.KernelIdeal.Gen Cert.Hadamard

variable (m : (ℓ : Loc nD τ sig) → Buf (Elt Ideal) ℓ) (ρ : Dev nD → PrngReg)

/-- The matrix the region finds is the argument, reshaped. -/
theorem V_main_v0 (c : Dev nD) :
    (V m c main_v0 : S16384x4096.Idx → EReal)
      = shapeCast S16384x4096 (m ((c : Thread nD τ).loc main_arg0)) shapeCasts_S4x4096x4096_S16384x4096 := by
  show StableHlo.after hostOps0 (fun b => m (c, b)) (Proc.devRef .tc main_v0) = _
  after_results
  rfl

/-- The result buffer after the host line that follows the region: `G` of the argument. -/
theorem tail_eq (c : Dev nD) :
    (Pipeline.afterTail₀ cfgs (dats m) 0 (V0 m) [hostOps1] c main_v2 : S4x4096x4096.Idx → EReal)
      = G (m ((c : Thread nD τ).loc main_arg0)) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1)
        = G2 (V m c main_v0) from (Pipeline.withArrays_arr spec0 launch0.win.arr_inj c _ _ 1).trans (Blocks.final m c)]
  rw [V_main_v0]
  exact reshape_G2 _ _ _

/-- THE KERNEL'S RUN at the ideal instance: every weakly fair execution terminates with the result at `G` of the
    argument and the argument unchanged. -/
theorem run : θ_run defs (onTc (τ := τ) (main (F := Ideal))) ⟨m, fun _ => 0, ρ⟩ fun r => ∀ c : Dev nD,
      r.2.mem ((c.tc : Thread nD τ).loc main_v2) = G (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

end Cert.Hadamard.KernelRun

end
-- ==== Proof.RefStages.lean ====
/-
  The reference program's five butterfly stages, read at an index.

  The program regroups the argument `[4, 4096, 4096]` as `B = 2097152` rows of 32 entries (row `b` is one position and
  one lane, its entry `h` the value of head `h`), and then runs five stages. The stage of stride `c` sees the rows as an
  array `[B, 16 / c, 2, c]`, whose entry `(b, p, e, k)` is entry `p * (2 c) + e * c + k` of row `b`; it cuts the array
  at `e = 0` and `e = 1`, adds and subtracts the two halves, stacks sum and difference along the axis of `e` and
  flattens. Row-major regrouping keeps an entry's number inside its row, so the stage is `bfly c` on every row.

  Everything here is stated for an arbitrary array and arbitrary proofs of the shape conditions, so that it applies to
  the program's named stage arrays by unification. `Reads A y` is the invariant the stages carry.
-/
import proofs.«177979_j46153718563373_2_alg».proof.Proof.Hadamard
import Idealize.ShloMosaic.Lib.Pipeline.Value
import Idealize.ShloMosaic.Lib.ValueIdx
import Idealize.ShloMosaic.Lib.ValueLayout

noncomputable section

namespace Cert.Hadamard.Ref

open Idealize.ShloMosaic Idealize.ShloMosaic.ValueIdx Cert.Hadamard

/-- One half of a stage's input: the slice of axis 2 at `o`, with the unit axis dropped. -/
theorem half {α : Type} {n1 c : ℕ} (A : (⟨4, ![2097152, n1, 2, c]⟩ : Shape).Idx → α) (o : ℕ) (ho : o < 2)
    (hs : (⟨4, ![2097152, n1, 2, c]⟩ : Shape).Slices ![0, 0, o, 0] ⟨4, ![2097152, n1, 1, c]⟩)
    (hc : (⟨4, ![2097152, n1, 1, c]⟩ : Shape).ShapeCasts ⟨3, ![2097152, n1, c]⟩)
    (b : Fin 2097152) (p : Fin n1) (k : Fin c) :
    shapeCast ⟨3, ![2097152, n1, c]⟩ (extractStridedSlice ⟨4, ![2097152, n1, 1, c]⟩ ![0, 0, o, 0] A hs) hc (ix3 b p k)
      = A (ix4 b p ⟨o, ho⟩ k) := by
  refine (shapeCast_apply _ hc (ix3 b p k) (ix4 b p (0 : Fin 1) k) ?_).trans ?_
  · rw [Shape.rowMajor_val_four, Shape.rowMajor_val_three]
    show ((b.val * n1 + p.val) * 1 + 0) * c + k.val = (b.val * n1 + p.val) * c + k.val
    rw [Nat.mul_one, Nat.add_zero]
  · exact slice4_axis2_apply o A hs b p 0 k ⟨o, ho⟩ rfl

/-- The broadcast of a `[B, n1, c]` array to `[B, n1, 1, c]` along axes 0, 1, 3. -/
theorem bcast_apply {α : Type} {n1 c : ℕ} (S : (⟨3, ![2097152, n1, c]⟩ : Shape).Idx → α)
    (hb : (⟨3, ![2097152, n1, c]⟩ : Shape).BroadcastsInDim ⟨4, ![2097152, n1, 1, c]⟩ ![0, 1, 3])
    (b : Fin 2097152) (p : Fin n1) (u : Fin 1) (k : Fin c) :
    broadcastInDim ⟨4, ![2097152, n1, 1, c]⟩ ![0, 1, 3] hb S (ix4 b p u k) = S (ix3 b p k) := by
  refine broadcastInDim_apply _ hb S (ix4 b p u k) (ix3 b p k) fun a => ?_
  match a with
  | ⟨0, _⟩ =>
    show b.val = if (2097152 : ℕ) = 1 then 0 else b.val
    rw [if_neg (by decide)]
  | ⟨1, _⟩ =>
    show p.val = if n1 = 1 then 0 else p.val
    have := p.isLt
    split
    · omega
    · rfl
  | ⟨2, _⟩ =>
    show k.val = if c = 1 then 0 else k.val
    have := k.isLt
    split
    · omega
    · rfl

/-- The two broadcast pieces stacked along axis 2: entry `e = 0` is the first, `e = 1` the second. -/
theorem cat_apply {α : Type} {n1 c : ℕ} (S D : (⟨3, ![2097152, n1, c]⟩ : Shape).Idx → α)
    (hb : (⟨3, ![2097152, n1, c]⟩ : Shape).BroadcastsInDim ⟨4, ![2097152, n1, 1, c]⟩ ![0, 1, 3])
    (hcat : Shape.Concatenates [⟨4, ![2097152, n1, 1, c]⟩, ⟨4, ![2097152, n1, 1, c]⟩] ⟨4, ![2097152, n1, 2, c]⟩ 2)
    (b : Fin 2097152) (p : Fin n1) (e : Fin 2) (k : Fin c) :
    concatenate ⟨4, ![2097152, n1, 2, c]⟩ 2
        [⟨⟨4, ![2097152, n1, 1, c]⟩, broadcastInDim ⟨4, ![2097152, n1, 1, c]⟩ ![0, 1, 3] hb S⟩,
         ⟨⟨4, ![2097152, n1, 1, c]⟩, broadcastInDim ⟨4, ![2097152, n1, 1, c]⟩ ![0, 1, 3] hb D⟩] hcat (ix4 b p e k)
      = if e.val = 0 then S (ix3 b p k) else D (ix3 b p k) := by
  by_cases he : e.val = 0
  · rw [if_pos he]
    refine (concatenate_pair_apply_left (t := ⟨4, ![2097152, n1, 2, c]⟩) 2 _ _ hcat (ix4 b p e k) rfl (ix4 b p (0 : Fin 1) k) fun a => ?_).trans
      (bcast_apply S hb b p 0 k)
    match a with
    | ⟨0, _⟩ => rfl
    | ⟨1, _⟩ => rfl
    | ⟨2, _⟩ => exact he.symm
    | ⟨3, _⟩ => rfl
  · rw [if_neg he]
    have he1 : e.val = 1 := by have := e.isLt; omega
    refine (concatenate_pair_apply_right (t := ⟨4, ![2097152, n1, 2, c]⟩) 2 _ _ hcat (ix4 b p e k) rfl rfl (ix4 b p (0 : Fin 1) k) (fun a ha => ?_) ?_).trans
      (bcast_apply D hb b p 0 k)
    · match a, ha with
      | ⟨0, _⟩, _ => rfl
      | ⟨1, _⟩, _ => rfl
      | ⟨2, _⟩, ha => exact absurd rfl ha
      | ⟨3, _⟩, _ => rfl
    · show 0 + 1 = e.val
      omega

/-- `A : [B, n1, 2, n3]` reads the rows `y`: entry `(b, p, e, k)` is entry `p * (2 n3) + e * n3 + k` of row `b`. -/
def Reads {n1 n3 : ℕ} (A : (⟨4, ![2097152, n1, 2, n3]⟩ : Shape).Idx → EReal) (y : Fin 2097152 → ℕ → EReal) : Prop :=
  ∀ (b : Fin 2097152) (p : Fin n1) (e : Fin 2) (k : Fin n3), A (ix4 b p e k) = y b (p.val * (2 * n3) + e.val * n3 + k.val)

/-- The stage's output `[B, 16, 2, 1]` flattened to `[B, 16, 2]` and regrouped as `[B, 8, 2, 2]`: entry
    `(b, p, e, k)` of the regrouped array is entry `(b, 2 p + e, k / 1, k % 1)` of the stacked one. -/
theorem recast_c1 {α : Type} (X : (⟨4, ![2097152, 16, 2, 1]⟩ : Shape).Idx → α)
    (hc2 : (⟨4, ![2097152, 16, 2, 1]⟩ : Shape).ShapeCasts ⟨3, ![2097152, 16, 2]⟩)
    (hc3 : (⟨3, ![2097152, 16, 2]⟩ : Shape).ShapeCasts ⟨4, ![2097152, 8, 2, 2]⟩)
    (b : Fin 2097152) (p : Fin 8) (e : Fin 2) (k : Fin 2) :
    shapeCast ⟨4, ![2097152, 8, 2, 2]⟩ (shapeCast ⟨3, ![2097152, 16, 2]⟩ X hc2) hc3 (ix4 b p e k)
      = X (ix4 b ⟨2 * p.val + e.val, by omega⟩ ⟨k.val / 1, by omega⟩ ⟨k.val % 1, by omega⟩) := by
  have hp := p.isLt; have he := e.isLt; have hk := k.isLt; have hb := b.isLt
  refine (shapeCast_apply _ hc3 (ix4 b p e k) (ix3 b ⟨2 * p.val + e.val, by omega⟩ k) ?_).trans ?_
  · rw [Shape.rowMajor_val_four, Shape.rowMajor_val_three]
    show (b.val * 16 + (2 * p.val + e.val)) * 2 + k.val = ((b.val * 8 + p.val) * 2 + e.val) * 2 + k.val
    omega
  · refine shapeCast_apply _ hc2 _ _ ?_
    rw [Shape.rowMajor_val_four, Shape.rowMajor_val_three]
    show ((b.val * 16 + (2 * p.val + e.val)) * 2 + k.val / 1) * 1 + k.val % 1 = (b.val * 16 + (2 * p.val + e.val)) * 2 + k.val
    omega

/-- The stage of stride 1: if `A : [B, 16, 2, 1]` reads the rows `y`, the next array `[B, 8, 2, 2]` reads the rows
    `bfly 1 (y b)`. -/
theorem stage_c1 (A : (⟨4, ![2097152, 16, 2, 1]⟩ : Shape).Idx → EReal) (y : Fin 2097152 → ℕ → EReal) (hA : Reads A y)
    (hs0 : (⟨4, ![2097152, 16, 2, 1]⟩ : Shape).Slices ![0, 0, 0, 0] ⟨4, ![2097152, 16, 1, 1]⟩)
    (hs1 : (⟨4, ![2097152, 16, 2, 1]⟩ : Shape).Slices ![0, 0, 1, 0] ⟨4, ![2097152, 16, 1, 1]⟩)
    (hc1 : (⟨4, ![2097152, 16, 1, 1]⟩ : Shape).ShapeCasts ⟨3, ![2097152, 16, 1]⟩)
    (hb : (⟨3, ![2097152, 16, 1]⟩ : Shape).BroadcastsInDim ⟨4, ![2097152, 16, 1, 1]⟩ ![0, 1, 3])
    (hcat : Shape.Concatenates [⟨4, ![2097152, 16, 1, 1]⟩, ⟨4, ![2097152, 16, 1, 1]⟩] ⟨4, ![2097152, 16, 2, 1]⟩ 2)
    (hc2 : (⟨4, ![2097152, 16, 2, 1]⟩ : Shape).ShapeCasts ⟨3, ![2097152, 16, 2]⟩)
    (hc3 : (⟨3, ![2097152, 16, 2]⟩ : Shape).ShapeCasts ⟨4, ![2097152, 8, 2, 2]⟩) :
    Reads (shapeCast ⟨4, ![2097152, 8, 2, 2]⟩ (shapeCast ⟨3, ![2097152, 16, 2]⟩
      (concatenate ⟨4, ![2097152, 16, 2, 1]⟩ 2
        [⟨⟨4, ![2097152, 16, 1, 1]⟩, broadcastInDim ⟨4, ![2097152, 16, 1, 1]⟩ ![0, 1, 3] hb
            (addf (F := Ideal) (φ := .f32) (shapeCast ⟨3, ![2097152, 16, 1]⟩ (extractStridedSlice ⟨4, ![2097152, 16, 1, 1]⟩ ![0, 0, 0, 0] A hs0) hc1)
              (shapeCast ⟨3, ![2097152, 16, 1]⟩ (extractStridedSlice ⟨4, ![2097152, 16, 1, 1]⟩ ![0, 0, 1, 0] A hs1) hc1))⟩,
         ⟨⟨4, ![2097152, 16, 1, 1]⟩, broadcastInDim ⟨4, ![2097152, 16, 1, 1]⟩ ![0, 1, 3] hb
            (subf (F := Ideal) (φ := .f32) (shapeCast ⟨3, ![2097152, 16, 1]⟩ (extractStridedSlice ⟨4, ![2097152, 16, 1, 1]⟩ ![0, 0, 0, 0] A hs0) hc1)
              (shapeCast ⟨3, ![2097152, 16, 1]⟩ (extractStridedSlice ⟨4, ![2097152, 16, 1, 1]⟩ ![0, 0, 1, 0] A hs1) hc1))⟩] hcat) hc2) hc3)
      (fun b => bfly 1 (y b)) := by
  intro b p e k
  have hp := p.isLt; have he := e.isLt; have hk := k.isLt
  refine (recast_c1 _ hc2 hc3 b p e k).trans ?_
  refine (cat_apply _ _ hb hcat b _ _ _).trans ?_
  show _ = bfly 1 (y b) (p.val * (2 * 2) + e.val * 2 + k.val)
  unfold bfly
  by_cases h : k.val < 1
  · rw [if_pos (show k.val / 1 = 0 by omega), if_pos (show (p.val * (2 * 2) + e.val * 2 + k.val) / 1 % 2 = 0 by omega)]
    rw [addf_apply, half A 0 (by omega) hs0 hc1, half A 1 (by omega) hs1 hc1, hA, hA]
    congr 1 <;> exact congrArg (y b) (by show _ = _; dsimp only; omega)
  · rw [if_neg (show ¬ k.val / 1 = 0 by omega), if_neg (show ¬ (p.val * (2 * 2) + e.val * 2 + k.val) / 1 % 2 = 0 by omega)]
    rw [subf_apply, half A 0 (by omega) hs0 hc1, half A 1 (by omega) hs1 hc1, hA, hA]
    congr 1 <;> exact congrArg (y b) (by show _ = _; dsimp only; omega)

/-- The stage's output `[B, 8, 2, 2]` flattened to `[B, 8, 4]` and regrouped as `[B, 4, 2, 4]`: entry
    `(b, p, e, k)` of the regrouped array is entry `(b, 2 p + e, k / 2, k % 2)` of the stacked one. -/
theorem recast_c2 {α : Type} (X : (⟨4, ![2097152, 8, 2, 2]⟩ : Shape).Idx → α)
    (hc2 : (⟨4, ![2097152, 8, 2, 2]⟩ : Shape).ShapeCasts ⟨3, ![2097152, 8, 4]⟩)
    (hc3 : (⟨3, ![2097152, 8, 4]⟩ : Shape).ShapeCasts ⟨4, ![2097152, 4, 2, 4]⟩)
    (b : Fin 2097152) (p : Fin 4) (e : Fin 2) (k : Fin 4) :
    shapeCast ⟨4, ![2097152, 4, 2, 4]⟩ (shapeCast ⟨3, ![2097152, 8, 4]⟩ X hc2) hc3 (ix4 b p e k)
      = X (ix4 b ⟨2 * p.val + e.val, by omega⟩ ⟨k.val / 2, by omega⟩ ⟨k.val % 2, by omega⟩) := by
  have hp := p.isLt; have he := e.isLt; have hk := k.isLt; have hb := b.isLt
  refine (shapeCast_apply _ hc3 (ix4 b p e k) (ix3 b ⟨2 * p.val + e.val, by omega⟩ k) ?_).trans ?_
  · rw [Shape.rowMajor_val_four, Shape.rowMajor_val_three]
    show (b.val * 8 + (2 * p.val + e.val)) * 4 + k.val = ((b.val * 4 + p.val) * 2 + e.val) * 4 + k.val
    omega
  · refine shapeCast_apply _ hc2 _ _ ?_
    rw [Shape.rowMajor_val_four, Shape.rowMajor_val_three]
    show ((b.val * 8 + (2 * p.val + e.val)) * 2 + k.val / 2) * 2 + k.val % 2 = (b.val * 8 + (2 * p.val + e.val)) * 4 + k.val
    omega

/-- The stage of stride 2: if `A : [B, 8, 2, 2]` reads the rows `y`, the next array `[B, 4, 2, 4]` reads the rows
    `bfly 2 (y b)`. -/
theorem stage_c2 (A : (⟨4, ![2097152, 8, 2, 2]⟩ : Shape).Idx → EReal) (y : Fin 2097152 → ℕ → EReal) (hA : Reads A y)
    (hs0 : (⟨4, ![2097152, 8, 2, 2]⟩ : Shape).Slices ![0, 0, 0, 0] ⟨4, ![2097152, 8, 1, 2]⟩)
    (hs1 : (⟨4, ![2097152, 8, 2, 2]⟩ : Shape).Slices ![0, 0, 1, 0] ⟨4, ![2097152, 8, 1, 2]⟩)
    (hc1 : (⟨4, ![2097152, 8, 1, 2]⟩ : Shape).ShapeCasts ⟨3, ![2097152, 8, 2]⟩)
    (hb : (⟨3, ![2097152, 8, 2]⟩ : Shape).BroadcastsInDim ⟨4, ![2097152, 8, 1, 2]⟩ ![0, 1, 3])
    (hcat : Shape.Concatenates [⟨4, ![2097152, 8, 1, 2]⟩, ⟨4, ![2097152, 8, 1, 2]⟩] ⟨4, ![2097152, 8, 2, 2]⟩ 2)
    (hc2 : (⟨4, ![2097152, 8, 2, 2]⟩ : Shape).ShapeCasts ⟨3, ![2097152, 8, 4]⟩)
    (hc3 : (⟨3, ![2097152, 8, 4]⟩ : Shape).ShapeCasts ⟨4, ![2097152, 4, 2, 4]⟩) :
    Reads (shapeCast ⟨4, ![2097152, 4, 2, 4]⟩ (shapeCast ⟨3, ![2097152, 8, 4]⟩
      (concatenate ⟨4, ![2097152, 8, 2, 2]⟩ 2
        [⟨⟨4, ![2097152, 8, 1, 2]⟩, broadcastInDim ⟨4, ![2097152, 8, 1, 2]⟩ ![0, 1, 3] hb
            (addf (F := Ideal) (φ := .f32) (shapeCast ⟨3, ![2097152, 8, 2]⟩ (extractStridedSlice ⟨4, ![2097152, 8, 1, 2]⟩ ![0, 0, 0, 0] A hs0) hc1)
              (shapeCast ⟨3, ![2097152, 8, 2]⟩ (extractStridedSlice ⟨4, ![2097152, 8, 1, 2]⟩ ![0, 0, 1, 0] A hs1) hc1))⟩,
         ⟨⟨4, ![2097152, 8, 1, 2]⟩, broadcastInDim ⟨4, ![2097152, 8, 1, 2]⟩ ![0, 1, 3] hb
            (subf (F := Ideal) (φ := .f32) (shapeCast ⟨3, ![2097152, 8, 2]⟩ (extractStridedSlice ⟨4, ![2097152, 8, 1, 2]⟩ ![0, 0, 0, 0] A hs0) hc1)
              (shapeCast ⟨3, ![2097152, 8, 2]⟩ (extractStridedSlice ⟨4, ![2097152, 8, 1, 2]⟩ ![0, 0, 1, 0] A hs1) hc1))⟩] hcat) hc2) hc3)
      (fun b => bfly 2 (y b)) := by
  intro b p e k
  have hp := p.isLt; have he := e.isLt; have hk := k.isLt
  refine (recast_c2 _ hc2 hc3 b p e k).trans ?_
  refine (cat_apply _ _ hb hcat b _ _ _).trans ?_
  show _ = bfly 2 (y b) (p.val * (2 * 4) + e.val * 4 + k.val)
  unfold bfly
  by_cases h : k.val < 2
  · rw [if_pos (show k.val / 2 = 0 by omega), if_pos (show (p.val * (2 * 4) + e.val * 4 + k.val) / 2 % 2 = 0 by omega)]
    rw [addf_apply, half A 0 (by omega) hs0 hc1, half A 1 (by omega) hs1 hc1, hA, hA]
    congr 1 <;> exact congrArg (y b) (by show _ = _; dsimp only; omega)
  · rw [if_neg (show ¬ k.val / 2 = 0 by omega), if_neg (show ¬ (p.val * (2 * 4) + e.val * 4 + k.val) / 2 % 2 = 0 by omega)]
    rw [subf_apply, half A 0 (by omega) hs0 hc1, half A 1 (by omega) hs1 hc1, hA, hA]
    congr 1 <;> exact congrArg (y b) (by show _ = _; dsimp only; omega)

/-- The stage's output `[B, 4, 2, 4]` flattened to `[B, 4, 8]` and regrouped as `[B, 2, 2, 8]`: entry
    `(b, p, e, k)` of the regrouped array is entry `(b, 2 p + e, k / 4, k % 4)` of the stacked one. -/
theorem recast_c4 {α : Type} (X : (⟨4, ![2097152, 4, 2, 4]⟩ : Shape).Idx → α)
    (hc2 : (⟨4, ![2097152, 4, 2, 4]⟩ : Shape).ShapeCasts ⟨3, ![2097152, 4, 8]⟩)
    (hc3 : (⟨3, ![2097152, 4, 8]⟩ : Shape).ShapeCasts ⟨4, ![2097152, 2, 2, 8]⟩)
    (b : Fin 2097152) (p : Fin 2) (e : Fin 2) (k : Fin 8) :
    shapeCast ⟨4, ![2097152, 2, 2, 8]⟩ (shapeCast ⟨3, ![2097152, 4, 8]⟩ X hc2) hc3 (ix4 b p e k)
      = X (ix4 b ⟨2 * p.val + e.val, by omega⟩ ⟨k.val / 4, by omega⟩ ⟨k.val % 4, by omega⟩) := by
  have hp := p.isLt; have he := e.isLt; have hk := k.isLt; have hb := b.isLt
  refine (shapeCast_apply _ hc3 (ix4 b p e k) (ix3 b ⟨2 * p.val + e.val, by omega⟩ k) ?_).trans ?_
  · rw [Shape.rowMajor_val_four, Shape.rowMajor_val_three]
    show (b.val * 4 + (2 * p.val + e.val)) * 8 + k.val = ((b.val * 2 + p.val) * 2 + e.val) * 8 + k.val
    omega
  · refine shapeCast_apply _ hc2 _ _ ?_
    rw [Shape.rowMajor_val_four, Shape.rowMajor_val_three]
    show ((b.val * 4 + (2 * p.val + e.val)) * 2 + k.val / 4) * 4 + k.val % 4 = (b.val * 4 + (2 * p.val + e.val)) * 8 + k.val
    omega

/-- The stage of stride 4: if `A : [B, 4, 2, 4]` reads the rows `y`, the next array `[B, 2, 2, 8]` reads the rows
    `bfly 4 (y b)`. -/
theorem stage_c4 (A : (⟨4, ![2097152, 4, 2, 4]⟩ : Shape).Idx → EReal) (y : Fin 2097152 → ℕ → EReal) (hA : Reads A y)
    (hs0 : (⟨4, ![2097152, 4, 2, 4]⟩ : Shape).Slices ![0, 0, 0, 0] ⟨4, ![2097152, 4, 1, 4]⟩)
    (hs1 : (⟨4, ![2097152, 4, 2, 4]⟩ : Shape).Slices ![0, 0, 1, 0] ⟨4, ![2097152, 4, 1, 4]⟩)
    (hc1 : (⟨4, ![2097152, 4, 1, 4]⟩ : Shape).ShapeCasts ⟨3, ![2097152, 4, 4]⟩)
    (hb : (⟨3, ![2097152, 4, 4]⟩ : Shape).BroadcastsInDim ⟨4, ![2097152, 4, 1, 4]⟩ ![0, 1, 3])
    (hcat : Shape.Concatenates [⟨4, ![2097152, 4, 1, 4]⟩, ⟨4, ![2097152, 4, 1, 4]⟩] ⟨4, ![2097152, 4, 2, 4]⟩ 2)
    (hc2 : (⟨4, ![2097152, 4, 2, 4]⟩ : Shape).ShapeCasts ⟨3, ![2097152, 4, 8]⟩)
    (hc3 : (⟨3, ![2097152, 4, 8]⟩ : Shape).ShapeCasts ⟨4, ![2097152, 2, 2, 8]⟩) :
    Reads (shapeCast ⟨4, ![2097152, 2, 2, 8]⟩ (shapeCast ⟨3, ![2097152, 4, 8]⟩
      (concatenate ⟨4, ![2097152, 4, 2, 4]⟩ 2
        [⟨⟨4, ![2097152, 4, 1, 4]⟩, broadcastInDim ⟨4, ![2097152, 4, 1, 4]⟩ ![0, 1, 3] hb
            (addf (F := Ideal) (φ := .f32) (shapeCast ⟨3, ![2097152, 4, 4]⟩ (extractStridedSlice ⟨4, ![2097152, 4, 1, 4]⟩ ![0, 0, 0, 0] A hs0) hc1)
              (shapeCast ⟨3, ![2097152, 4, 4]⟩ (extractStridedSlice ⟨4, ![2097152, 4, 1, 4]⟩ ![0, 0, 1, 0] A hs1) hc1))⟩,
         ⟨⟨4, ![2097152, 4, 1, 4]⟩, broadcastInDim ⟨4, ![2097152, 4, 1, 4]⟩ ![0, 1, 3] hb
            (subf (F := Ideal) (φ := .f32) (shapeCast ⟨3, ![2097152, 4, 4]⟩ (extractStridedSlice ⟨4, ![2097152, 4, 1, 4]⟩ ![0, 0, 0, 0] A hs0) hc1)
              (shapeCast ⟨3, ![2097152, 4, 4]⟩ (extractStridedSlice ⟨4, ![2097152, 4, 1, 4]⟩ ![0, 0, 1, 0] A hs1) hc1))⟩] hcat) hc2) hc3)
      (fun b => bfly 4 (y b)) := by
  intro b p e k
  have hp := p.isLt; have he := e.isLt; have hk := k.isLt
  refine (recast_c4 _ hc2 hc3 b p e k).trans ?_
  refine (cat_apply _ _ hb hcat b _ _ _).trans ?_
  show _ = bfly 4 (y b) (p.val * (2 * 8) + e.val * 8 + k.val)
  unfold bfly
  by_cases h : k.val < 4
  · rw [if_pos (show k.val / 4 = 0 by omega), if_pos (show (p.val * (2 * 8) + e.val * 8 + k.val) / 4 % 2 = 0 by omega)]
    rw [addf_apply, half A 0 (by omega) hs0 hc1, half A 1 (by omega) hs1 hc1, hA, hA]
    congr 1 <;> exact congrArg (y b) (by show _ = _; dsimp only; omega)
  · rw [if_neg (show ¬ k.val / 4 = 0 by omega), if_neg (show ¬ (p.val * (2 * 8) + e.val * 8 + k.val) / 4 % 2 = 0 by omega)]
    rw [subf_apply, half A 0 (by omega) hs0 hc1, half A 1 (by omega) hs1 hc1, hA, hA]
    congr 1 <;> exact congrArg (y b) (by show _ = _; dsimp only; omega)

/-- The stage's output `[B, 2, 2, 8]` flattened to `[B, 2, 16]` and regrouped as `[B, 1, 2, 16]`: entry
    `(b, p, e, k)` of the regrouped array is entry `(b, 2 p + e, k / 8, k % 8)` of the stacked one. -/
theorem recast_c8 {α : Type} (X : (⟨4, ![2097152, 2, 2, 8]⟩ : Shape).Idx → α)
    (hc2 : (⟨4, ![2097152, 2, 2, 8]⟩ : Shape).ShapeCasts ⟨3, ![2097152, 2, 16]⟩)
    (hc3 : (⟨3, ![2097152, 2, 16]⟩ : Shape).ShapeCasts ⟨4, ![2097152, 1, 2, 16]⟩)
    (b : Fin 2097152) (p : Fin 1) (e : Fin 2) (k : Fin 16) :
    shapeCast ⟨4, ![2097152, 1, 2, 16]⟩ (shapeCast ⟨3, ![2097152, 2, 16]⟩ X hc2) hc3 (ix4 b p e k)
      = X (ix4 b ⟨2 * p.val + e.val, by omega⟩ ⟨k.val / 8, by omega⟩ ⟨k.val % 8, by omega⟩) := by
  have hp := p.isLt; have he := e.isLt; have hk := k.isLt; have hb := b.isLt
  refine (shapeCast_apply _ hc3 (ix4 b p e k) (ix3 b ⟨2 * p.val + e.val, by omega⟩ k) ?_).trans ?_
  · rw [Shape.rowMajor_val_four, Shape.rowMajor_val_three]
    show (b.val * 2 + (2 * p.val + e.val)) * 16 + k.val = ((b.val * 1 + p.val) * 2 + e.val) * 16 + k.val
    omega
  · refine shapeCast_apply _ hc2 _ _ ?_
    rw [Shape.rowMajor_val_four, Shape.rowMajor_val_three]
    show ((b.val * 2 + (2 * p.val + e.val)) * 2 + k.val / 8) * 8 + k.val % 8 = (b.val * 2 + (2 * p.val + e.val)) * 16 + k.val
    omega

/-- The stage of stride 8: if `A : [B, 2, 2, 8]` reads the rows `y`, the next array `[B, 1, 2, 16]` reads the rows
    `bfly 8 (y b)`. -/
theorem stage_c8 (A : (⟨4, ![2097152, 2, 2, 8]⟩ : Shape).Idx → EReal) (y : Fin 2097152 → ℕ → EReal) (hA : Reads A y)
    (hs0 : (⟨4, ![2097152, 2, 2, 8]⟩ : Shape).Slices ![0, 0, 0, 0] ⟨4, ![2097152, 2, 1, 8]⟩)
    (hs1 : (⟨4, ![2097152, 2, 2, 8]⟩ : Shape).Slices ![0, 0, 1, 0] ⟨4, ![2097152, 2, 1, 8]⟩)
    (hc1 : (⟨4, ![2097152, 2, 1, 8]⟩ : Shape).ShapeCasts ⟨3, ![2097152, 2, 8]⟩)
    (hb : (⟨3, ![2097152, 2, 8]⟩ : Shape).BroadcastsInDim ⟨4, ![2097152, 2, 1, 8]⟩ ![0, 1, 3])
    (hcat : Shape.Concatenates [⟨4, ![2097152, 2, 1, 8]⟩, ⟨4, ![2097152, 2, 1, 8]⟩] ⟨4, ![2097152, 2, 2, 8]⟩ 2)
    (hc2 : (⟨4, ![2097152, 2, 2, 8]⟩ : Shape).ShapeCasts ⟨3, ![2097152, 2, 16]⟩)
    (hc3 : (⟨3, ![2097152, 2, 16]⟩ : Shape).ShapeCasts ⟨4, ![2097152, 1, 2, 16]⟩) :
    Reads (shapeCast ⟨4, ![2097152, 1, 2, 16]⟩ (shapeCast ⟨3, ![2097152, 2, 16]⟩
      (concatenate ⟨4, ![2097152, 2, 2, 8]⟩ 2
        [⟨⟨4, ![2097152, 2, 1, 8]⟩, broadcastInDim ⟨4, ![2097152, 2, 1, 8]⟩ ![0, 1, 3] hb
            (addf (F := Ideal) (φ := .f32) (shapeCast ⟨3, ![2097152, 2, 8]⟩ (extractStridedSlice ⟨4, ![2097152, 2, 1, 8]⟩ ![0, 0, 0, 0] A hs0) hc1)
              (shapeCast ⟨3, ![2097152, 2, 8]⟩ (extractStridedSlice ⟨4, ![2097152, 2, 1, 8]⟩ ![0, 0, 1, 0] A hs1) hc1))⟩,
         ⟨⟨4, ![2097152, 2, 1, 8]⟩, broadcastInDim ⟨4, ![2097152, 2, 1, 8]⟩ ![0, 1, 3] hb
            (subf (F := Ideal) (φ := .f32) (shapeCast ⟨3, ![2097152, 2, 8]⟩ (extractStridedSlice ⟨4, ![2097152, 2, 1, 8]⟩ ![0, 0, 0, 0] A hs0) hc1)
              (shapeCast ⟨3, ![2097152, 2, 8]⟩ (extractStridedSlice ⟨4, ![2097152, 2, 1, 8]⟩ ![0, 0, 1, 0] A hs1) hc1))⟩] hcat) hc2) hc3)
      (fun b => bfly 8 (y b)) := by
  intro b p e k
  have hp := p.isLt; have he := e.isLt; have hk := k.isLt
  refine (recast_c8 _ hc2 hc3 b p e k).trans ?_
  refine (cat_apply _ _ hb hcat b _ _ _).trans ?_
  show _ = bfly 8 (y b) (p.val * (2 * 16) + e.val * 16 + k.val)
  unfold bfly
  by_cases h : k.val < 8
  · rw [if_pos (show k.val / 8 = 0 by omega), if_pos (show (p.val * (2 * 16) + e.val * 16 + k.val) / 8 % 2 = 0 by omega)]
    rw [addf_apply, half A 0 (by omega) hs0 hc1, half A 1 (by omega) hs1 hc1, hA, hA]
    congr 1 <;> exact congrArg (y b) (by show _ = _; dsimp only; omega)
  · rw [if_neg (show ¬ k.val / 8 = 0 by omega), if_neg (show ¬ (p.val * (2 * 16) + e.val * 16 + k.val) / 8 % 2 = 0 by omega)]
    rw [subf_apply, half A 0 (by omega) hs0 hc1, half A 1 (by omega) hs1 hc1, hA, hA]
    congr 1 <;> exact congrArg (y b) (by show _ = _; dsimp only; omega)

/-- The last stage's output `[B, 1, 2, 16]` flattened to `[B, 1, 32]` and then to `[B, 32]`: entry `(b, j)` is entry
    `(b, 0, j / 16, j % 16)` of the stacked array. -/
theorem recast_last {α : Type} (X : (⟨4, ![2097152, 1, 2, 16]⟩ : Shape).Idx → α)
    (hc2 : (⟨4, ![2097152, 1, 2, 16]⟩ : Shape).ShapeCasts ⟨3, ![2097152, 1, 32]⟩)
    (hc3 : (⟨3, ![2097152, 1, 32]⟩ : Shape).ShapeCasts ⟨2, ![2097152, 32]⟩)
    (b : Fin 2097152) (j : Fin 32) :
    shapeCast ⟨2, ![2097152, 32]⟩ (shapeCast ⟨3, ![2097152, 1, 32]⟩ X hc2) hc3 (ix2 b j)
      = X (ix4 b (⟨0, by omega⟩ : Fin 1) ⟨j.val / 16, by omega⟩ ⟨j.val % 16, by omega⟩) := by
  have hj := j.isLt; have hb := b.isLt
  refine (shapeCast_apply _ hc3 (ix2 b j) (ix3 b (⟨0, by omega⟩ : Fin 1) j) ?_).trans ?_
  · rw [Shape.rowMajor_val_three, Shape.rowMajor_val_two]
    show (b.val * 1 + 0) * 32 + j.val = b.val * 32 + j.val
    omega
  · refine shapeCast_apply _ hc2 _ _ ?_
    rw [Shape.rowMajor_val_four, Shape.rowMajor_val_three]
    show ((b.val * 1 + 0) * 2 + j.val / 16) * 16 + j.val % 16 = (b.val * 1 + 0) * 32 + j.val
    omega

/-- The stage of stride 16: if `A : [B, 1, 2, 16]` reads the rows `y`, the flattened result `[B, 32]` is, at `(b, j)`,
    entry `j` of `bfly 16 (y b)`. -/
theorem stage_c16 (A : (⟨4, ![2097152, 1, 2, 16]⟩ : Shape).Idx → EReal) (y : Fin 2097152 → ℕ → EReal) (hA : Reads A y)
    (hs0 : (⟨4, ![2097152, 1, 2, 16]⟩ : Shape).Slices ![0, 0, 0, 0] ⟨4, ![2097152, 1, 1, 16]⟩)
    (hs1 : (⟨4, ![2097152, 1, 2, 16]⟩ : Shape).Slices ![0, 0, 1, 0] ⟨4, ![2097152, 1, 1, 16]⟩)
    (hc1 : (⟨4, ![2097152, 1, 1, 16]⟩ : Shape).ShapeCasts ⟨3, ![2097152, 1, 16]⟩)
    (hb : (⟨3, ![2097152, 1, 16]⟩ : Shape).BroadcastsInDim ⟨4, ![2097152, 1, 1, 16]⟩ ![0, 1, 3])
    (hcat : Shape.Concatenates [⟨4, ![2097152, 1, 1, 16]⟩, ⟨4, ![2097152, 1, 1, 16]⟩] ⟨4, ![2097152, 1, 2, 16]⟩ 2)
    (hc2 : (⟨4, ![2097152, 1, 2, 16]⟩ : Shape).ShapeCasts ⟨3, ![2097152, 1, 32]⟩)
    (hc3 : (⟨3, ![2097152, 1, 32]⟩ : Shape).ShapeCasts ⟨2, ![2097152, 32]⟩)
    (b : Fin 2097152) (j : Fin 32) :
    shapeCast ⟨2, ![2097152, 32]⟩ (shapeCast ⟨3, ![2097152, 1, 32]⟩
      (concatenate ⟨4, ![2097152, 1, 2, 16]⟩ 2
        [⟨⟨4, ![2097152, 1, 1, 16]⟩, broadcastInDim ⟨4, ![2097152, 1, 1, 16]⟩ ![0, 1, 3] hb
            (addf (F := Ideal) (φ := .f32) (shapeCast ⟨3, ![2097152, 1, 16]⟩ (extractStridedSlice ⟨4, ![2097152, 1, 1, 16]⟩ ![0, 0, 0, 0] A hs0) hc1)
              (shapeCast ⟨3, ![2097152, 1, 16]⟩ (extractStridedSlice ⟨4, ![2097152, 1, 1, 16]⟩ ![0, 0, 1, 0] A hs1) hc1))⟩,
         ⟨⟨4, ![2097152, 1, 1, 16]⟩, broadcastInDim ⟨4, ![2097152, 1, 1, 16]⟩ ![0, 1, 3] hb
            (subf (F := Ideal) (φ := .f32) (shapeCast ⟨3, ![2097152, 1, 16]⟩ (extractStridedSlice ⟨4, ![2097152, 1, 1, 16]⟩ ![0, 0, 0, 0] A hs0) hc1)
              (shapeCast ⟨3, ![2097152, 1, 16]⟩ (extractStridedSlice ⟨4, ![2097152, 1, 1, 16]⟩ ![0, 0, 1, 0] A hs1) hc1))⟩] hcat) hc2) hc3 (ix2 b j)
      = bfly 16 (y b) j.val := by
  have hj := j.isLt
  refine (recast_last _ hc2 hc3 b j).trans ?_
  refine (cat_apply _ _ hb hcat b _ _ _).trans ?_
  unfold bfly
  by_cases h : j.val < 16
  · rw [if_pos (show j.val / 16 = 0 by omega), if_pos (show j.val / 16 % 2 = 0 by omega)]
    rw [addf_apply, half A 0 (by omega) hs0 hc1, half A 1 (by omega) hs1 hc1, hA, hA]
    congr 1 <;> exact congrArg (y b) (by show _ = _; dsimp only; omega)
  · rw [if_neg (show ¬ j.val / 16 = 0 by omega), if_neg (show ¬ j.val / 16 % 2 = 0 by omega)]
    rw [subf_apply, half A 0 (by omega) hs0 hc1, half A 1 (by omega) hs1 hc1, hA, hA]
    congr 1 <;> exact congrArg (y b) (by show _ = _; dsimp only; omega)

/-- Two rank-3 indices with the same coordinates are equal. -/
theorem ix3_congr {n0 n1 n2 : ℕ} {a a' : Fin n0} {b b' : Fin n1} {c c' : Fin n2}
    (ha : a.val = a'.val) (hb : b.val = b'.val) (hc : c.val = c'.val) : ix3 a b c = ix3 a' b' c' := by
  obtain rfl := Fin.ext ha
  obtain rfl := Fin.ext hb
  obtain rfl := Fin.ext hc
  rfl

/-- The row the first stage starts from: row `b = (position) * 128 + lane` holds, at entry `h < 32`, the argument at that
    position and column `h * 128 + lane` (zero past the 32 heads). -/
def startRow (x : (⟨3, ![4, 4096, 4096]⟩ : Shape).Idx → EReal) (b : Fin 2097152) (h : ℕ) : EReal :=
  if hh : h < 32 then
    x (ix3 ⟨b.val / 128 / 4096, by have := b.isLt; omega⟩ ⟨b.val / 128 % 4096, by omega⟩ ⟨h * 128 + b.val % 128, by omega⟩)
  else 0

/-- The first stage's input reads the rows `startRow x`: the argument regrouped as `[16384, 32, 128]`, its last two axes
    swapped, flattened to `[B, 32]`, given a unit axis and regrouped as `[B, 16, 2, 1]`. -/
theorem start_reads (x : (⟨3, ![4, 4096, 4096]⟩ : Shape).Idx → EReal)
    (h1 : (⟨3, ![4, 4096, 4096]⟩ : Shape).ShapeCasts ⟨3, ![16384, 32, 128]⟩)
    (ht : (⟨3, ![16384, 32, 128]⟩ : Shape).Transposes [0, 2, 1] ⟨3, ![16384, 128, 32]⟩)
    (h2 : (⟨3, ![16384, 128, 32]⟩ : Shape).ShapeCasts ⟨2, ![2097152, 32]⟩)
    (hb0 : (⟨2, ![2097152, 32]⟩ : Shape).BroadcastsInDim ⟨3, ![2097152, 32, 1]⟩ ![0, 1])
    (h3 : (⟨3, ![2097152, 32, 1]⟩ : Shape).ShapeCasts ⟨4, ![2097152, 16, 2, 1]⟩) :
    Reads (n1 := 16) (n3 := 1) (shapeCast ⟨4, ![2097152, 16, 2, 1]⟩ (broadcastInDim ⟨3, ![2097152, 32, 1]⟩ ![0, 1] hb0
      (shapeCast ⟨2, ![2097152, 32]⟩ (transpose ⟨3, ![16384, 128, 32]⟩ [0, 2, 1]
        (shapeCast ⟨3, ![16384, 32, 128]⟩ x h1) ht) h2)) h3) (startRow x) := by
  intro b p e k
  have hb := b.isLt; have hp := p.isLt; have he := e.isLt; have hk := k.isLt
  refine (shapeCast_apply _ h3 (ix4 b p e k) (ix3 b (⟨2 * p.val + e.val, by omega⟩ : Fin 32) (⟨0, by omega⟩ : Fin 1)) ?_).trans ?_
  · rw [Shape.rowMajor_val_four, Shape.rowMajor_val_three]
    show (b.val * 32 + (2 * p.val + e.val)) * 1 + 0 = ((b.val * 16 + p.val) * 2 + e.val) * 1 + k.val
    omega
  refine (broadcastInDim_apply _ hb0 _ _ (ix2 b (⟨2 * p.val + e.val, by omega⟩ : Fin 32)) (fun a => ?_)).trans ?_
  · match a with
    | ⟨0, _⟩ =>
      show b.val = if (2097152 : ℕ) = 1 then 0 else b.val
      rw [if_neg (by decide)]
    | ⟨1, _⟩ =>
      show 2 * p.val + e.val = if (32 : ℕ) = 1 then 0 else 2 * p.val + e.val
      rw [if_neg (by decide)]
  refine (shapeCast_apply _ h2 _ (ix3 (⟨b.val / 128, by omega⟩ : Fin 16384) (⟨b.val % 128, by omega⟩ : Fin 128) (⟨2 * p.val + e.val, by omega⟩ : Fin 32)) ?_).trans ?_
  · rw [Shape.rowMajor_val_three, Shape.rowMajor_val_two]
    show (b.val / 128 * 128 + b.val % 128) * 32 + (2 * p.val + e.val) = b.val * 32 + (2 * p.val + e.val)
    omega
  refine (transpose_ix3_021_apply _ ht _ _ _).trans ?_
  refine (shapeCast_apply _ h1 _ (ix3 (⟨b.val / 128 / 4096, by omega⟩ : Fin 4) (⟨b.val / 128 % 4096, by omega⟩ : Fin 4096)
    (⟨(2 * p.val + e.val) * 128 + b.val % 128, by omega⟩ : Fin 4096)) ?_).trans ?_
  · rw [Shape.rowMajor_val_three, Shape.rowMajor_val_three]
    show (b.val / 128 / 4096 * 4096 + b.val / 128 % 4096) * 4096 + ((2 * p.val + e.val) * 128 + b.val % 128)
      = (b.val / 128 * 32 + (2 * p.val + e.val)) * 128 + b.val % 128
    omega
  unfold startRow
  rw [dif_pos (show p.val * (2 * 1) + e.val * 1 + k.val < 32 by omega)]
  exact congrArg x (ix3_congr rfl rfl (by show (2 * p.val + e.val) * 128 + b.val % 128 = (p.val * (2 * 1) + e.val * 1 + k.val) * 128 + b.val % 128; omega))

/-- The end of the program: the `[B, 32]` array `R` times the broadcast constant, regrouped as `[16384, 128, 32]`, its
    last two axes swapped, regrouped as `[4, 4096, 4096]`, reads at position `(a, bb)` and column `j * 128 + d` the entry
    `j` of row `(a * 4096 + bb) * 128 + d` of `R`, times the constant. -/
theorem end_apply (R : (⟨2, ![2097152, 32]⟩ : Shape).Idx → EReal)
    (hbc : (⟨0, ![]⟩ : Shape).BroadcastsInDim ⟨2, ![2097152, 32]⟩ ![])
    (h5 : (⟨2, ![2097152, 32]⟩ : Shape).ShapeCasts ⟨3, ![16384, 128, 32]⟩)
    (ht2 : (⟨3, ![16384, 128, 32]⟩ : Shape).Transposes [0, 2, 1] ⟨3, ![16384, 32, 128]⟩)
    (h6 : (⟨3, ![16384, 32, 128]⟩ : Shape).ShapeCasts ⟨3, ![4, 4096, 4096]⟩)
    (a : Fin 4) (bb : Fin 4096) (j : Fin 32) (d : Fin 128) :
    shapeCast ⟨3, ![4, 4096, 4096]⟩ (transpose ⟨3, ![16384, 32, 128]⟩ [0, 2, 1]
      (shapeCast ⟨3, ![16384, 128, 32]⟩ (mulf (F := Ideal) (φ := .f32) R
        (broadcastInDim ⟨2, ![2097152, 32]⟩ ![] hbc (constant (F := Ideal) ⟨0, ![]⟩ .f32 0x3E3504F3#32))) h5) ht2) h6
      (ix3 a bb ⟨j.val * 128 + d.val, by omega⟩)
      = R (ix2 ⟨(a.val * 4096 + bb.val) * 128 + d.val, by omega⟩ j) * Ideal.ofBits .f32 0x3E3504F3#32 := by
  have ha := a.isLt; have hbb := bb.isLt; have hj := j.isLt; have hd := d.isLt
  refine (shapeCast_apply _ h6 _ (ix3 (⟨a.val * 4096 + bb.val, by omega⟩ : Fin 16384) j d) ?_).trans ?_
  · rw [Shape.rowMajor_val_three, Shape.rowMajor_val_three]
    show ((a.val * 4096 + bb.val) * 32 + j.val) * 128 + d.val = (a.val * 4096 + bb.val) * 4096 + (j.val * 128 + d.val)
    omega
  refine (transpose_ix3_021_apply _ ht2 _ _ _).trans ?_
  refine (shapeCast_apply _ h5 _ (ix2 (⟨(a.val * 4096 + bb.val) * 128 + d.val, by omega⟩ : Fin 2097152) j) ?_).trans ?_
  · rw [Shape.rowMajor_val_two, Shape.rowMajor_val_three]
    rfl
  refine (mulf_apply _ _ _).trans (congrArg (R _ * ·) ?_)
  exact (broadcastInDim_apply _ hbc _ _ ix0 (fun a => a.elim0)).trans (constant_apply _ _)

/-- The starting row of `b = (a * 4096 + bb) * 128 + d` is the specification's row of position `(a, bb)` and lane `d`. -/
theorem startRow_eq_row (x : (⟨3, ![4, 4096, 4096]⟩ : Shape).Idx → EReal) (a : Fin 4) (bb : Fin 4096) (d : Fin 128) :
    startRow x ⟨(a.val * 4096 + bb.val) * 128 + d.val, by omega⟩ = Cert.Hadamard.row x a bb d := by
  funext h
  have ha := a.isLt; have hbb := bb.isLt; have hd := d.isLt
  unfold startRow Cert.Hadamard.row
  by_cases hh : h < 32
  · rw [dif_pos hh, dif_pos hh]
    exact congrArg x (ix3_congr
      (by show ((a.val * 4096 + bb.val) * 128 + d.val) / 128 / 4096 = a.val; omega)
      (by show ((a.val * 4096 + bb.val) * 128 + d.val) / 128 % 4096 = bb.val; omega)
      (by show h * 128 + ((a.val * 4096 + bb.val) * 128 + d.val) % 128 = h * 128 + d.val; omega))
  · rw [dif_neg hh, dif_neg hh]

end Cert.Hadamard.Ref

end
-- ==== Proof.RefValue.lean ====
/-
  The reference program's result is the specification's array.

  The program is a list of 66 operations, and what a buffer holds after them is the fold of the operations over the
  starting contents. The list is cut at the stage boundaries into six lists: the first five operations (up to the first
  stage's input), the eleven operations of each of the stages of strides 1, 2, 4, 8, and the last seventeen (the stage of
  stride 16, the product with the constant, the regrouping back to `[4, 4096, 4096]`). For each list, what it leaves in
  its last buffer is one stage's expression of what its first buffer held, whatever the contents before it; so the
  invariant `Reads` passes from list to list by the stage lemma of its stride, and the last list lands on entry `j` of
  the transform of the row of its position and lane, times the scale: the specification's `G`.
-/
import proofs.«177979_j46153718563373_2_alg».proof.Proof.RefRun
import proofs.«177979_j46153718563373_2_alg».proof.Proof.RefStages

noncomputable section

namespace Cert.Hadamard.Ref

open Cert.ReferenceIdeal Cert.ReferenceIdeal.Gen Cert.ReferenceIdeal.ValueP Idealize.ShloMosaic Idealize.ShloMosaic.TcCoe Idealize.SL.Sem Idealize.ShloMosaic.StableHlo Idealize.ShloMosaic.ValueIdx Cert.Hadamard

/-- Operations run one list after another are their concatenation run as one. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

section Windows
variable {F : FTy → Type} [FloatOps F]

/-- Operations 1 to 5 of the program. -/
abbrev w0 : List (HloOp τ sig (Elt F)) :=
  [ reshape main_arg0 main_v0 rfl shapeCasts_S4x4096x4096_S16384x32x128,
    unary main_v0 main_v1 ((transpose S16384x128x32 [0, 2, 1] · transposes_S16384x32x128_S16384x128x32_0_2_1) : (⟨S16384x32x128, .f32⟩ : BufTy).Contents (Elt F) → (⟨S16384x128x32, .f32⟩ : BufTy).Contents (Elt F)),
    reshape main_v1 main_v2 rfl shapeCasts_S16384x128x32_S2097152x32,
    unary main_v2 main_v3 (broadcastInDim S2097152x32x1 ![0, 1] bcast_S2097152x32_S2097152x32x1_0_1 : (⟨S2097152x32, .f32⟩ : BufTy).Contents (Elt F) → (⟨S2097152x32x1, .f32⟩ : BufTy).Contents (Elt F)),
    reshape main_v3 main_v4 rfl shapeCasts_S2097152x32x1_S2097152x16x2x1 ]

/-- Operations 6 to 16 of the program. -/
abbrev w1 : List (HloOp τ sig (Elt F)) :=
  [ unary main_v4 main_v5 ((extractStridedSlice S2097152x16x1x1 ![0, 0, 0, 0] · slices_S2097152x16x2x1_S2097152x16x1x1_0_0_0_0) : (⟨S2097152x16x2x1, .f32⟩ : BufTy).Contents (Elt F) → (⟨S2097152x16x1x1, .f32⟩ : BufTy).Contents (Elt F)),
    reshape main_v5 main_v6 rfl shapeCasts_S2097152x16x1x1_S2097152x16x1,
    unary main_v4 main_v7 ((extractStridedSlice S2097152x16x1x1 ![0, 0, 1, 0] · slices_S2097152x16x2x1_S2097152x16x1x1_0_0_1_0) : (⟨S2097152x16x2x1, .f32⟩ : BufTy).Contents (Elt F) → (⟨S2097152x16x1x1, .f32⟩ : BufTy).Contents (Elt F)),
    reshape main_v7 main_v8 rfl shapeCasts_S2097152x16x1x1_S2097152x16x1,
    binary main_v6 main_v8 main_v9 (addf : (⟨S2097152x16x1, .f32⟩ : BufTy).Contents (Elt F) → (⟨S2097152x16x1, .f32⟩ : BufTy).Contents (Elt F) → (⟨S2097152x16x1, .f32⟩ : BufTy).Contents (Elt F)),
    binary main_v6 main_v8 main_v10 (subf : (⟨S2097152x16x1, .f32⟩ : BufTy).Contents (Elt F) → (⟨S2097152x16x1, .f32⟩ : BufTy).Contents (Elt F) → (⟨S2097152x16x1, .f32⟩ : BufTy).Contents (Elt F)),
    unary main_v9 main_v11 (broadcastInDim S2097152x16x1x1 ![0, 1, 3] bcast_S2097152x16x1_S2097152x16x1x1_0_1_3 : (⟨S2097152x16x1, .f32⟩ : BufTy).Contents (Elt F) → (⟨S2097152x16x1x1, .f32⟩ : BufTy).Contents (Elt F)),
    unary main_v10 main_v12 (broadcastInDim S2097152x16x1x1 ![0, 1, 3] bcast_S2097152x16x1_S2097152x16x1x1_0_1_3 : (⟨S2097152x16x1, .f32⟩ : BufTy).Contents (Elt F) → (⟨S2097152x16x1x1, .f32⟩ : BufTy).Contents (Elt F)),
    binary main_v11 main_v12 main_v13 ((fun a b => concatenate S2097152x16x2x1 2 [⟨S2097152x16x1x1, a⟩, ⟨S2097152x16x1x1, b⟩] concatenates_S2097152x16x1x1_S2097152x16x1x1_S2097152x16x2x1_d2) : (⟨S2097152x16x1x1, .f32⟩ : BufTy).Contents (Elt F) → (⟨S2097152x16x1x1, .f32⟩ : BufTy).Contents (Elt F) → (⟨S2097152x16x2x1, .f32⟩ : BufTy).Contents (Elt F)),
    reshape main_v13 main_v14 rfl shapeCasts_S2097152x16x2x1_S2097152x16x2,
    reshape main_v14 main_v15 rfl shapeCasts_S2097152x16x2_S2097152x8x2x2 ]

/-- Operations 17 to 27 of the program. -/
abbrev w2 : List (HloOp τ sig (Elt F)) :=
  [ unary main_v15 main_v16 ((extractStridedSlice S2097152x8x1x2 ![0, 0, 0, 0] · slices_S2097152x8x2x2_S2097152x8x1x2_0_0_0_0) : (⟨S2097152x8x2x2, .f32⟩ : BufTy).Contents (Elt F) → (⟨S2097152x8x1x2, .f32⟩ : BufTy).Contents (Elt F)),
    reshape main_v16 main_v17 rfl shapeCasts_S2097152x8x1x2_S2097152x8x2,
    unary main_v15 main_v18 ((extractStridedSlice S2097152x8x1x2 ![0, 0, 1, 0] · slices_S2097152x8x2x2_S2097152x8x1x2_0_0_1_0) : (⟨S2097152x8x2x2, .f32⟩ : BufTy).Contents (Elt F) → (⟨S2097152x8x1x2, .f32⟩ : BufTy).Contents (Elt F)),
    reshape main_v18 main_v19 rfl shapeCasts_S2097152x8x1x2_S2097152x8x2,
    binary main_v17 main_v19 main_v20 (addf : (⟨S2097152x8x2, .f32⟩ : BufTy).Contents (Elt F) → (⟨S2097152x8x2, .f32⟩ : BufTy).Contents (Elt F) → (⟨S2097152x8x2, .f32⟩ : BufTy).Contents (Elt F)),
    binary main_v17 main_v19 main_v21 (subf : (⟨S2097152x8x2, .f32⟩ : BufTy).Contents (Elt F) → (⟨S2097152x8x2, .f32⟩ : BufTy).Contents (Elt F) → (⟨S2097152x8x2, .f32⟩ : BufTy).Contents (Elt F)),
    unary main_v20 main_v22 (broadcastInDim S2097152x8x1x2 ![0, 1, 3] bcast_S2097152x8x2_S2097152x8x1x2_0_1_3 : (⟨S2097152x8x2, .f32⟩ : BufTy).Contents (Elt F) → (⟨S2097152x8x1x2, .f32⟩ : BufTy).Contents (Elt F)),
    unary main_v21 main_v23 (broadcastInDim S2097152x8x1x2 ![0, 1, 3] bcast_S2097152x8x2_S2097152x8x1x2_0_1_3 : (⟨S2097152x8x2, .f32⟩ : BufTy).Contents (Elt F) → (⟨S2097152x8x1x2, .f32⟩ : BufTy).Contents (Elt F)),
    binary main_v22 main_v23 main_v24 ((fun a b => concatenate S2097152x8x2x2 2 [⟨S2097152x8x1x2, a⟩, ⟨S2097152x8x1x2, b⟩] concatenates_S2097152x8x1x2_S2097152x8x1x2_S2097152x8x2x2_d2) : (⟨S2097152x8x1x2, .f32⟩ : BufTy).Contents (Elt F) → (⟨S2097152x8x1x2, .f32⟩ : BufTy).Contents (Elt F) → (⟨S2097152x8x2x2, .f32⟩ : BufTy).Contents (Elt F)),
    reshape main_v24 main_v25 rfl shapeCasts_S2097152x8x2x2_S2097152x8x4,
    reshape main_v25 main_v26 rfl shapeCasts_S2097152x8x4_S2097152x4x2x4 ]

/-- Operations 28 to 38 of the program. -/
abbrev w3 : List (HloOp τ sig (Elt F)) :=
  [ unary main_v26 main_v27 ((extractStridedSlice S2097152x4x1x4 ![0, 0, 0, 0] · slices_S2097152x4x2x4_S2097152x4x1x4_0_0_0_0) : (⟨S2097152x4x2x4, .f32⟩ : BufTy).Contents (Elt F) → (⟨S2097152x4x1x4, .f32⟩ : BufTy).Contents (Elt F)),
    reshape main_v27 main_v28 rfl shapeCasts_S2097152x4x1x4_S2097152x4x4,
    unary main_v26 main_v29 ((extractStridedSlice S2097152x4x1x4 ![0, 0, 1, 0] · slices_S2097152x4x2x4_S2097152x4x1x4_0_0_1_0) : (⟨S2097152x4x2x4, .f32⟩ : BufTy).Contents (Elt F) → (⟨S2097152x4x1x4, .f32⟩ : BufTy).Contents (Elt F)),
    reshape main_v29 main_v30 rfl shapeCasts_S2097152x4x1x4_S2097152x4x4,
    binary main_v28 main_v30 main_v31 (addf : (⟨S2097152x4x4, .f32⟩ : BufTy).Contents (Elt F) → (⟨S2097152x4x4, .f32⟩ : BufTy).Contents (Elt F) → (⟨S2097152x4x4, .f32⟩ : BufTy).Contents (Elt F)),
    binary main_v28 main_v30 main_v32 (subf : (⟨S2097152x4x4, .f32⟩ : BufTy).Contents (Elt F) → (⟨S2097152x4x4, .f32⟩ : BufTy).Contents (Elt F) → (⟨S2097152x4x4, .f32⟩ : BufTy).Contents (Elt F)),
    unary main_v31 main_v33 (broadcastInDim S2097152x4x1x4 ![0, 1, 3] bcast_S2097152x4x4_S2097152x4x1x4_0_1_3 : (⟨S2097152x4x4, .f32⟩ : BufTy).Contents (Elt F) → (⟨S2097152x4x1x4, .f32⟩ : BufTy).Contents (Elt F)),
    unary main_v32 main_v34 (broadcastInDim S2097152x4x1x4 ![0, 1, 3] bcast_S2097152x4x4_S2097152x4x1x4_0_1_3 : (⟨S2097152x4x4, .f32⟩ : BufTy).Contents (Elt F) → (⟨S2097152x4x1x4, .f32⟩ : BufTy).Contents (Elt F)),
    binary main_v33 main_v34 main_v35 ((fun a b => concatenate S2097152x4x2x4 2 [⟨S2097152x4x1x4, a⟩, ⟨S2097152x4x1x4, b⟩] concatenates_S2097152x4x1x4_S2097152x4x1x4_S2097152x4x2x4_d2) : (⟨S2097152x4x1x4, .f32⟩ : BufTy).Contents (Elt F) → (⟨S2097152x4x1x4, .f32⟩ : BufTy).Contents (Elt F) → (⟨S2097152x4x2x4, .f32⟩ : BufTy).Contents (Elt F)),
    reshape main_v35 main_v36 rfl shapeCasts_S2097152x4x2x4_S2097152x4x8,
    reshape main_v36 main_v37 rfl shapeCasts_S2097152x4x8_S2097152x2x2x8 ]

/-- Operations 39 to 49 of the program. -/
abbrev w4 : List (HloOp τ sig (Elt F)) :=
  [ unary main_v37 main_v38 ((extractStridedSlice S2097152x2x1x8 ![0, 0, 0, 0] · slices_S2097152x2x2x8_S2097152x2x1x8_0_0_0_0) : (⟨S2097152x2x2x8, .f32⟩ : BufTy).Contents (Elt F) → (⟨S2097152x2x1x8, .f32⟩ : BufTy).Contents (Elt F)),
    reshape main_v38 main_v39 rfl shapeCasts_S2097152x2x1x8_S2097152x2x8,
    unary main_v37 main_v40 ((extractStridedSlice S2097152x2x1x8 ![0, 0, 1, 0] · slices_S2097152x2x2x8_S2097152x2x1x8_0_0_1_0) : (⟨S2097152x2x2x8, .f32⟩ : BufTy).Contents (Elt F) → (⟨S2097152x2x1x8, .f32⟩ : BufTy).Contents (Elt F)),
    reshape main_v40 main_v41 rfl shapeCasts_S2097152x2x1x8_S2097152x2x8,
    binary main_v39 main_v41 main_v42 (addf : (⟨S2097152x2x8, .f32⟩ : BufTy).Contents (Elt F) → (⟨S2097152x2x8, .f32⟩ : BufTy).Contents (Elt F) → (⟨S2097152x2x8, .f32⟩ : BufTy).Contents (Elt F)),
    binary main_v39 main_v41 main_v43 (subf : (⟨S2097152x2x8, .f32⟩ : BufTy).Contents (Elt F) → (⟨S2097152x2x8, .f32⟩ : BufTy).Contents (Elt F) → (⟨S2097152x2x8, .f32⟩ : BufTy).Contents (Elt F)),
    unary main_v42 main_v44 (broadcastInDim S2097152x2x1x8 ![0, 1, 3] bcast_S2097152x2x8_S2097152x2x1x8_0_1_3 : (⟨S2097152x2x8, .f32⟩ : BufTy).Contents (Elt F) → (⟨S2097152x2x1x8, .f32⟩ : BufTy).Contents (Elt F)),
    unary main_v43 main_v45 (broadcastInDim S2097152x2x1x8 ![0, 1, 3] bcast_S2097152x2x8_S2097152x2x1x8_0_1_3 : (⟨S2097152x2x8, .f32⟩ : BufTy).Contents (Elt F) → (⟨S2097152x2x1x8, .f32⟩ : BufTy).Contents (Elt F)),
    binary main_v44 main_v45 main_v46 ((fun a b => concatenate S2097152x2x2x8 2 [⟨S2097152x2x1x8, a⟩, ⟨S2097152x2x1x8, b⟩] concatenates_S2097152x2x1x8_S2097152x2x1x8_S2097152x2x2x8_d2) : (⟨S2097152x2x1x8, .f32⟩ : BufTy).Contents (Elt F) → (⟨S2097152x2x1x8, .f32⟩ : BufTy).Contents (Elt F) → (⟨S2097152x2x2x8, .f32⟩ : BufTy).Contents (Elt F)),
    reshape main_v46 main_v47 rfl shapeCasts_S2097152x2x2x8_S2097152x2x16,
    reshape main_v47 main_v48 rfl shapeCasts_S2097152x2x16_S2097152x1x2x16 ]

/-- Operations 50 to 66 of the program. -/
abbrev w5 : List (HloOp τ sig (Elt F)) :=
  [ unary main_v48 main_v49 ((extractStridedSlice S2097152x1x1x16 ![0, 0, 0, 0] · slices_S2097152x1x2x16_S2097152x1x1x16_0_0_0_0) : (⟨S2097152x1x2x16, .f32⟩ : BufTy).Contents (Elt F) → (⟨S2097152x1x1x16, .f32⟩ : BufTy).Contents (Elt F)),
    reshape main_v49 main_v50 rfl shapeCasts_S2097152x1x1x16_S2097152x1x16,
    unary main_v48 main_v51 ((extractStridedSlice S2097152x1x1x16 ![0, 0, 1, 0] · slices_S2097152x1x2x16_S2097152x1x1x16_0_0_1_0) : (⟨S2097152x1x2x16, .f32⟩ : BufTy).Contents (Elt F) → (⟨S2097152x1x1x16, .f32⟩ : BufTy).Contents (Elt F)),
    reshape main_v51 main_v52 rfl shapeCasts_S2097152x1x1x16_S2097152x1x16,
    binary main_v50 main_v52 main_v53 (addf : (⟨S2097152x1x16, .f32⟩ : BufTy).Contents (Elt F) → (⟨S2097152x1x16, .f32⟩ : BufTy).Contents (Elt F) → (⟨S2097152x1x16, .f32⟩ : BufTy).Contents (Elt F)),
    binary main_v50 main_v52 main_v54 (subf : (⟨S2097152x1x16, .f32⟩ : BufTy).Contents (Elt F) → (⟨S2097152x1x16, .f32⟩ : BufTy).Contents (Elt F) → (⟨S2097152x1x16, .f32⟩ : BufTy).Contents (Elt F)),
    unary main_v53 main_v55 (broadcastInDim S2097152x1x1x16 ![0, 1, 3] bcast_S2097152x1x16_S2097152x1x1x16_0_1_3 : (⟨S2097152x1x16, .f32⟩ : BufTy).Contents (Elt F) → (⟨S2097152x1x1x16, .f32⟩ : BufTy).Contents (Elt F)),
    unary main_v54 main_v56 (broadcastInDim S2097152x1x1x16 ![0, 1, 3] bcast_S2097152x1x16_S2097152x1x1x16_0_1_3 : (⟨S2097152x1x16, .f32⟩ : BufTy).Contents (Elt F) → (⟨S2097152x1x1x16, .f32⟩ : BufTy).Contents (Elt F)),
    binary main_v55 main_v56 main_v57 ((fun a b => concatenate S2097152x1x2x16 2 [⟨S2097152x1x1x16, a⟩, ⟨S2097152x1x1x16, b⟩] concatenates_S2097152x1x1x16_S2097152x1x1x16_S2097152x1x2x16_d2) : (⟨S2097152x1x1x16, .f32⟩ : BufTy).Contents (Elt F) → (⟨S2097152x1x1x16, .f32⟩ : BufTy).Contents (Elt F) → (⟨S2097152x1x2x16, .f32⟩ : BufTy).Contents (Elt F)),
    reshape main_v57 main_v58 rfl shapeCasts_S2097152x1x2x16_S2097152x1x32,
    reshape main_v58 main_v59 rfl shapeCasts_S2097152x1x32_S2097152x32,
    nullary main_cst (constant S_ .f32 0x3E3504F3#32),
    unary main_cst main_v60 (broadcastInDim S2097152x32 ![] bcast_S_S2097152x32 : (⟨S_, .f32⟩ : BufTy).Contents (Elt F) → (⟨S2097152x32, .f32⟩ : BufTy).Contents (Elt F)),
    binary main_v59 main_v60 main_v61 (mulf : (⟨S2097152x32, .f32⟩ : BufTy).Contents (Elt F) → (⟨S2097152x32, .f32⟩ : BufTy).Contents (Elt F) → (⟨S2097152x32, .f32⟩ : BufTy).Contents (Elt F)),
    reshape main_v61 main_v62 rfl shapeCasts_S2097152x32_S16384x128x32,
    unary main_v62 main_v63 ((transpose S16384x32x128 [0, 2, 1] · transposes_S16384x128x32_S16384x32x128_0_2_1) : (⟨S16384x128x32, .f32⟩ : BufTy).Contents (Elt F) → (⟨S16384x32x128, .f32⟩ : BufTy).Contents (Elt F)),
    reshape main_v63 main_v64 rfl shapeCasts_S16384x32x128_S4x4096x4096 ]

set_option maxRecDepth 8192 in
/-- The program's 66 operations are the six lists in order. -/
theorem ops_split : (ops : List (HloOp τ sig (Elt F))) = w0 ++ (w1 ++ (w2 ++ (w3 ++ (w4 ++ w5)))) := rfl

set_option maxRecDepth 8192 in
/-- What operations of `w0` leave in `main_v4`, as a function of what `main_arg0` held before them. -/
theorem w0_eq (W : Valuation τ sig (Elt F)) :
    after w0 W (Proc.devRef .tc main_v4) = shapeCast _ (broadcastInDim S2097152x32x1 ![0, 1] bcast_S2097152x32_S2097152x32x1_0_1 (shapeCast _ (transpose S16384x128x32 [0, 2, 1] (shapeCast _ (W (Proc.devRef .tc main_arg0)) shapeCasts_S4x4096x4096_S16384x32x128) transposes_S16384x32x128_S16384x128x32_0_2_1) shapeCasts_S16384x128x32_S2097152x32)) shapeCasts_S2097152x32x1_S2097152x16x2x1 := by
  after_results_simp <;> rfl

set_option maxRecDepth 8192 in
/-- What operations of `w1` leave in `main_v15`, as a function of what `main_v4` held before them. -/
theorem w1_eq (W : Valuation τ sig (Elt F)) :
    after w1 W (Proc.devRef .tc main_v15) = shapeCast _ (shapeCast _ (concatenate S2097152x16x2x1 2 [⟨S2097152x16x1x1, (broadcastInDim S2097152x16x1x1 ![0, 1, 3] bcast_S2097152x16x1_S2097152x16x1x1_0_1_3 (addf (shapeCast _ (extractStridedSlice S2097152x16x1x1 ![0, 0, 0, 0] (W (Proc.devRef .tc main_v4)) slices_S2097152x16x2x1_S2097152x16x1x1_0_0_0_0) shapeCasts_S2097152x16x1x1_S2097152x16x1) (shapeCast _ (extractStridedSlice S2097152x16x1x1 ![0, 0, 1, 0] (W (Proc.devRef .tc main_v4)) slices_S2097152x16x2x1_S2097152x16x1x1_0_0_1_0) shapeCasts_S2097152x16x1x1_S2097152x16x1)))⟩, ⟨S2097152x16x1x1, (broadcastInDim S2097152x16x1x1 ![0, 1, 3] bcast_S2097152x16x1_S2097152x16x1x1_0_1_3 (subf (shapeCast _ (extractStridedSlice S2097152x16x1x1 ![0, 0, 0, 0] (W (Proc.devRef .tc main_v4)) slices_S2097152x16x2x1_S2097152x16x1x1_0_0_0_0) shapeCasts_S2097152x16x1x1_S2097152x16x1) (shapeCast _ (extractStridedSlice S2097152x16x1x1 ![0, 0, 1, 0] (W (Proc.devRef .tc main_v4)) slices_S2097152x16x2x1_S2097152x16x1x1_0_0_1_0) shapeCasts_S2097152x16x1x1_S2097152x16x1)))⟩] concatenates_S2097152x16x1x1_S2097152x16x1x1_S2097152x16x2x1_d2) shapeCasts_S2097152x16x2x1_S2097152x16x2) shapeCasts_S2097152x16x2_S2097152x8x2x2 := by
  after_results_simp <;> rfl

set_option maxRecDepth 8192 in
/-- What operations of `w2` leave in `main_v26`, as a function of what `main_v15` held before them. -/
theorem w2_eq (W : Valuation τ sig (Elt F)) :
    after w2 W (Proc.devRef .tc main_v26) = shapeCast _ (shapeCast _ (concatenate S2097152x8x2x2 2 [⟨S2097152x8x1x2, (broadcastInDim S2097152x8x1x2 ![0, 1, 3] bcast_S2097152x8x2_S2097152x8x1x2_0_1_3 (addf (shapeCast _ (extractStridedSlice S2097152x8x1x2 ![0, 0, 0, 0] (W (Proc.devRef .tc main_v15)) slices_S2097152x8x2x2_S2097152x8x1x2_0_0_0_0) shapeCasts_S2097152x8x1x2_S2097152x8x2) (shapeCast _ (extractStridedSlice S2097152x8x1x2 ![0, 0, 1, 0] (W (Proc.devRef .tc main_v15)) slices_S2097152x8x2x2_S2097152x8x1x2_0_0_1_0) shapeCasts_S2097152x8x1x2_S2097152x8x2)))⟩, ⟨S2097152x8x1x2, (broadcastInDim S2097152x8x1x2 ![0, 1, 3] bcast_S2097152x8x2_S2097152x8x1x2_0_1_3 (subf (shapeCast _ (extractStridedSlice S2097152x8x1x2 ![0, 0, 0, 0] (W (Proc.devRef .tc main_v15)) slices_S2097152x8x2x2_S2097152x8x1x2_0_0_0_0) shapeCasts_S2097152x8x1x2_S2097152x8x2) (shapeCast _ (extractStridedSlice S2097152x8x1x2 ![0, 0, 1, 0] (W (Proc.devRef .tc main_v15)) slices_S2097152x8x2x2_S2097152x8x1x2_0_0_1_0) shapeCasts_S2097152x8x1x2_S2097152x8x2)))⟩] concatenates_S2097152x8x1x2_S2097152x8x1x2_S2097152x8x2x2_d2) shapeCasts_S2097152x8x2x2_S2097152x8x4) shapeCasts_S2097152x8x4_S2097152x4x2x4 := by
  after_results_simp <;> rfl

set_option maxRecDepth 8192 in
/-- What operations of `w3` leave in `main_v37`, as a function of what `main_v26` held before them. -/
theorem w3_eq (W : Valuation τ sig (Elt F)) :
    after w3 W (Proc.devRef .tc main_v37) = shapeCast _ (shapeCast _ (concatenate S2097152x4x2x4 2 [⟨S2097152x4x1x4, (broadcastInDim S2097152x4x1x4 ![0, 1, 3] bcast_S2097152x4x4_S2097152x4x1x4_0_1_3 (addf (shapeCast _ (extractStridedSlice S2097152x4x1x4 ![0, 0, 0, 0] (W (Proc.devRef .tc main_v26)) slices_S2097152x4x2x4_S2097152x4x1x4_0_0_0_0) shapeCasts_S2097152x4x1x4_S2097152x4x4) (shapeCast _ (extractStridedSlice S2097152x4x1x4 ![0, 0, 1, 0] (W (Proc.devRef .tc main_v26)) slices_S2097152x4x2x4_S2097152x4x1x4_0_0_1_0) shapeCasts_S2097152x4x1x4_S2097152x4x4)))⟩, ⟨S2097152x4x1x4, (broadcastInDim S2097152x4x1x4 ![0, 1, 3] bcast_S2097152x4x4_S2097152x4x1x4_0_1_3 (subf (shapeCast _ (extractStridedSlice S2097152x4x1x4 ![0, 0, 0, 0] (W (Proc.devRef .tc main_v26)) slices_S2097152x4x2x4_S2097152x4x1x4_0_0_0_0) shapeCasts_S2097152x4x1x4_S2097152x4x4) (shapeCast _ (extractStridedSlice S2097152x4x1x4 ![0, 0, 1, 0] (W (Proc.devRef .tc main_v26)) slices_S2097152x4x2x4_S2097152x4x1x4_0_0_1_0) shapeCasts_S2097152x4x1x4_S2097152x4x4)))⟩] concatenates_S2097152x4x1x4_S2097152x4x1x4_S2097152x4x2x4_d2) shapeCasts_S2097152x4x2x4_S2097152x4x8) shapeCasts_S2097152x4x8_S2097152x2x2x8 := by
  after_results_simp <;> rfl

set_option maxRecDepth 8192 in
/-- What operations of `w4` leave in `main_v48`, as a function of what `main_v37` held before them. -/
theorem w4_eq (W : Valuation τ sig (Elt F)) :
    after w4 W (Proc.devRef .tc main_v48) = shapeCast _ (shapeCast _ (concatenate S2097152x2x2x8 2 [⟨S2097152x2x1x8, (broadcastInDim S2097152x2x1x8 ![0, 1, 3] bcast_S2097152x2x8_S2097152x2x1x8_0_1_3 (addf (shapeCast _ (extractStridedSlice S2097152x2x1x8 ![0, 0, 0, 0] (W (Proc.devRef .tc main_v37)) slices_S2097152x2x2x8_S2097152x2x1x8_0_0_0_0) shapeCasts_S2097152x2x1x8_S2097152x2x8) (shapeCast _ (extractStridedSlice S2097152x2x1x8 ![0, 0, 1, 0] (W (Proc.devRef .tc main_v37)) slices_S2097152x2x2x8_S2097152x2x1x8_0_0_1_0) shapeCasts_S2097152x2x1x8_S2097152x2x8)))⟩, ⟨S2097152x2x1x8, (broadcastInDim S2097152x2x1x8 ![0, 1, 3] bcast_S2097152x2x8_S2097152x2x1x8_0_1_3 (subf (shapeCast _ (extractStridedSlice S2097152x2x1x8 ![0, 0, 0, 0] (W (Proc.devRef .tc main_v37)) slices_S2097152x2x2x8_S2097152x2x1x8_0_0_0_0) shapeCasts_S2097152x2x1x8_S2097152x2x8) (shapeCast _ (extractStridedSlice S2097152x2x1x8 ![0, 0, 1, 0] (W (Proc.devRef .tc main_v37)) slices_S2097152x2x2x8_S2097152x2x1x8_0_0_1_0) shapeCasts_S2097152x2x1x8_S2097152x2x8)))⟩] concatenates_S2097152x2x1x8_S2097152x2x1x8_S2097152x2x2x8_d2) shapeCasts_S2097152x2x2x8_S2097152x2x16) shapeCasts_S2097152x2x16_S2097152x1x2x16 := by
  after_results_simp <;> rfl

set_option maxRecDepth 8192 in
/-- What operations of `w5` leave in `main_v64`, as a function of what `main_v48` held before them. -/
theorem w5_eq (W : Valuation τ sig (Elt F)) :
    after w5 W (Proc.devRef .tc main_v64) = shapeCast _ (transpose S16384x32x128 [0, 2, 1] (shapeCast _ (mulf (shapeCast _ (shapeCast _ (concatenate S2097152x1x2x16 2 [⟨S2097152x1x1x16, (broadcastInDim S2097152x1x1x16 ![0, 1, 3] bcast_S2097152x1x16_S2097152x1x1x16_0_1_3 (addf (shapeCast _ (extractStridedSlice S2097152x1x1x16 ![0, 0, 0, 0] (W (Proc.devRef .tc main_v48)) slices_S2097152x1x2x16_S2097152x1x1x16_0_0_0_0) shapeCasts_S2097152x1x1x16_S2097152x1x16) (shapeCast _ (extractStridedSlice S2097152x1x1x16 ![0, 0, 1, 0] (W (Proc.devRef .tc main_v48)) slices_S2097152x1x2x16_S2097152x1x1x16_0_0_1_0) shapeCasts_S2097152x1x1x16_S2097152x1x16)))⟩, ⟨S2097152x1x1x16, (broadcastInDim S2097152x1x1x16 ![0, 1, 3] bcast_S2097152x1x16_S2097152x1x1x16_0_1_3 (subf (shapeCast _ (extractStridedSlice S2097152x1x1x16 ![0, 0, 0, 0] (W (Proc.devRef .tc main_v48)) slices_S2097152x1x2x16_S2097152x1x1x16_0_0_0_0) shapeCasts_S2097152x1x1x16_S2097152x1x16) (shapeCast _ (extractStridedSlice S2097152x1x1x16 ![0, 0, 1, 0] (W (Proc.devRef .tc main_v48)) slices_S2097152x1x2x16_S2097152x1x1x16_0_0_1_0) shapeCasts_S2097152x1x1x16_S2097152x1x16)))⟩] concatenates_S2097152x1x1x16_S2097152x1x1x16_S2097152x1x2x16_d2) shapeCasts_S2097152x1x2x16_S2097152x1x32) shapeCasts_S2097152x1x32_S2097152x32) (broadcastInDim S2097152x32 ![] bcast_S_S2097152x32 (constant S_ .f32 0x3E3504F3#32))) shapeCasts_S2097152x32_S16384x128x32) transposes_S16384x128x32_S16384x32x128_0_2_1) shapeCasts_S16384x32x128_S4x4096x4096 := by
  after_results_simp <;> rfl

end Windows

/-- The first stage's input, after the first five operations, reads the starting rows of the argument. -/
theorem reads_w0 (W : Valuation τ sig (Elt Ideal)) :
    Reads (n1 := 16) (n3 := 1) (after w0 W (Proc.devRef .tc main_v4)) (startRow (W (Proc.devRef .tc main_arg0))) := by
  rw [w0_eq W]
  exact start_reads _ _ _ _ _ _

/-- The operations of the stage of stride 1 turn an array that reads the rows `y` into one that reads `bfly 1 (y b)`. -/
theorem reads_w1 (W : Valuation τ sig (Elt Ideal)) (y : Fin 2097152 → ℕ → EReal)
    (h : Reads (n1 := 16) (n3 := 1) (W (Proc.devRef .tc main_v4)) y) :
    Reads (n1 := 8) (n3 := 2) (after w1 W (Proc.devRef .tc main_v15)) (fun b => bfly 1 (y b)) := by
  rw [w1_eq W]
  exact stage_c1 _ _ h _ _ _ _ _ _ _

/-- The operations of the stage of stride 2 turn an array that reads the rows `y` into one that reads `bfly 2 (y b)`. -/
theorem reads_w2 (W : Valuation τ sig (Elt Ideal)) (y : Fin 2097152 → ℕ → EReal)
    (h : Reads (n1 := 8) (n3 := 2) (W (Proc.devRef .tc main_v15)) y) :
    Reads (n1 := 4) (n3 := 4) (after w2 W (Proc.devRef .tc main_v26)) (fun b => bfly 2 (y b)) := by
  rw [w2_eq W]
  exact stage_c2 _ _ h _ _ _ _ _ _ _

/-- The operations of the stage of stride 4 turn an array that reads the rows `y` into one that reads `bfly 4 (y b)`. -/
theorem reads_w3 (W : Valuation τ sig (Elt Ideal)) (y : Fin 2097152 → ℕ → EReal)
    (h : Reads (n1 := 4) (n3 := 4) (W (Proc.devRef .tc main_v26)) y) :
    Reads (n1 := 2) (n3 := 8) (after w3 W (Proc.devRef .tc main_v37)) (fun b => bfly 4 (y b)) := by
  rw [w3_eq W]
  exact stage_c4 _ _ h _ _ _ _ _ _ _

/-- The operations of the stage of stride 8 turn an array that reads the rows `y` into one that reads `bfly 8 (y b)`. -/
theorem reads_w4 (W : Valuation τ sig (Elt Ideal)) (y : Fin 2097152 → ℕ → EReal)
    (h : Reads (n1 := 2) (n3 := 8) (W (Proc.devRef .tc main_v37)) y) :
    Reads (n1 := 1) (n3 := 16) (after w4 W (Proc.devRef .tc main_v48)) (fun b => bfly 8 (y b)) := by
  rw [w4_eq W]
  exact stage_c8 _ _ h _ _ _ _ _ _ _

/-- The last seventeen operations: the stage of stride 16, the product with the constant, and the regrouping back to
    `[4, 4096, 4096]`. At position `(a, bb)` and column `j * 128 + d` the result is entry `j` of `bfly 16` of row
    `(a * 4096 + bb) * 128 + d`, times the constant. -/
theorem value_w5 (W : Valuation τ sig (Elt Ideal)) (y : Fin 2097152 → ℕ → EReal)
    (h : Reads (n1 := 1) (n3 := 16) (W (Proc.devRef .tc main_v48)) y)
    (a : Fin 4) (bb : Fin 4096) (j : Fin 32) (d : Fin 128) :
    (after w5 W (Proc.devRef .tc main_v64) : (⟨3, ![4, 4096, 4096]⟩ : Shape).Idx → EReal) (ix3 a bb ⟨j.val * 128 + d.val, by omega⟩)
      = bfly 16 (y ⟨(a.val * 4096 + bb.val) * 128 + d.val, by omega⟩) j.val * Ideal.ofBits .f32 0x3E3504F3#32 := by
  rw [w5_eq W]
  refine (end_apply _ _ _ _ _ a bb j d).trans ?_
  refine congrArg₂ (· * ·) ?_ rfl
  exact stage_c16 _ y h _ _ _ _ _ _ _ _ j

set_option maxRecDepth 8192 in
/-- The result buffer after the program's operations, as a function of the valuation they start from, is the
    specification's array of the argument. -/
theorem result_eq (V0 : Valuation τ sig (Elt Ideal)) :
    (StableHlo.after (Cert.ReferenceIdeal.ValueP.ops (F := Ideal)) V0 (Proc.devRef .tc main_v64) : (⟨3, ![4, 4096, 4096]⟩ : Shape).Idx → EReal)
      = Cert.Hadamard.G (V0 (Proc.devRef .tc main_arg0)) := by
  have r0 := reads_w0 V0
  have r1 := reads_w1 _ _ r0
  have r2 := reads_w2 _ _ r1
  have r3 := reads_w3 _ _ r2
  have r4 := reads_w4 _ _ r3
  rw [ops_split, after_append, after_append, after_append, after_append, after_append]
  funext i
  obtain ⟨a, bb, cc, rfl⟩ : ∃ (a : Fin 4) (bb : Fin 4096) (cc : Fin 4096), i = ix3 a bb cc := ⟨i 0, i 1, i 2, eq_ix3 i⟩
  have hcc := cc.isLt
  obtain ⟨j, d, hjd⟩ : ∃ (j : Fin 32) (d : Fin 128), cc.val = j.val * 128 + d.val :=
    ⟨⟨cc.val / 128, by omega⟩, ⟨cc.val % 128, by omega⟩, by show cc.val = cc.val / 128 * 128 + cc.val % 128; omega⟩
  have hj := j.isLt; have hd := d.isLt
  have hcol : cc = ⟨j.val * 128 + d.val, by omega⟩ := Fin.ext hjd
  rw [hcol, Cert.Hadamard.G_at]
  refine (value_w5 _ _ r4 a bb j d).trans ?_
  show bfly 16 (bfly 8 (bfly 4 (bfly 2 (bfly 1 (startRow (V0 (Proc.devRef .tc main_arg0)) ⟨(a.val * 4096 + bb.val) * 128 + d.val, by omega⟩))))) j.val * _ = _
  rw [startRow_eq_row]
  rfl

end Cert.Hadamard.Ref

end
-- ==== Proof.lean ====
/-
  The certificate: a Walsh–Hadamard transform across the 32 heads, kernel against reference.

  Both programs take x : f32[4, 4096, 4096], whose last axis is 32 heads of 128 lanes, and return, at position
  `(a, b)`, head `j` and lane `d`, entry `j` of the transform of the row `h ↦ x (a, b, h * 128 + d)` times one fixed
  float word (module Hadamard: five butterfly stages of strides 1, 2, 4, 8, 16, each a sum or a difference of a
  pair, the scale multiplied on the right after the last stage).

  The kernel views the argument as a [16384, 4096] matrix, transforms 256 rows per grid point — 32 chunk loads, the
  butterflies on whole chunks, 32 chunk stores — and views the result back (modules Block, Blocks, Reshape,
  KernelRun). The reference moves the head axis last, reshapes to [2097152, 32], runs each stage as
  reshape / two slices / add / subtract / concatenate / reshape, scales, and undoes the reshapes and the
  transposition (modules RefStages, RefValue; RefRun is the reference's run, the list of its
  operations folded over the launch contents). At the ideal instance the two compute the same sums, differences and
  product of extended reals in the same order at every entry, so no law of arithmetic is used and the precondition
  is never opened; every equality is about where an entry sits.

  The three frames are the generated frame certificates (the reference's is its run with the result dropped); the idealization rewrote nothing, so `preserves` is trivial.
-/
import proofs.«177979_j46153718563373_2_alg».proof.Defs
import proofs.«177979_j46153718563373_2_alg».proof.Proof.Gen.Kernel
import proofs.«177979_j46153718563373_2_alg».proof.Proof.Gen.Kernel.Skeleton
import proofs.«177979_j46153718563373_2_alg».proof.Proof.Gen.Kernel.Launch
import proofs.«177979_j46153718563373_2_alg».proof.Proof.Gen.Kernel.Points
import proofs.«177979_j46153718563373_2_alg».proof.Proof.Gen.Kernel.Frame
import proofs.«177979_j46153718563373_2_alg».proof.Proof.Gen.KernelIdeal
import proofs.«177979_j46153718563373_2_alg».proof.Proof.Gen.KernelIdeal.Skeleton
import proofs.«177979_j46153718563373_2_alg».proof.Proof.Gen.KernelIdeal.Launch
import proofs.«177979_j46153718563373_2_alg».proof.Proof.Gen.KernelIdeal.Points
import proofs.«177979_j46153718563373_2_alg».proof.Proof.Gen.KernelIdeal.Frame
import proofs.«177979_j46153718563373_2_alg».proof.Proof.Gen.ReferenceIdeal
import proofs.«177979_j46153718563373_2_alg».proof.Proof.Gen.Pre_finite_inputs
import proofs.«177979_j46153718563373_2_alg».proof.Proof.KernelRun
import proofs.«177979_j46153718563373_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result at the specification's function of the argument, and the arguments agree. -/
theorem algebraic : Cert.algebraic_KernelIdeal_ReferenceIdeal := by
  intro m ρ m' ρ' _ hagree
  refine ⟨fun c => Cert.Hadamard.G (m ((c.tc : Thread Cert.KernelIdeal.nD Cert.KernelIdeal.τ).loc Cert.KernelIdeal.main_arg0)),
    Cert.Hadamard.KernelRun.run m ρ, ?_⟩
  refine (θ_run Cert.ReferenceIdeal.defs _ _).mono (fun _ h c => ⟨(h c).1.trans ?_, (h c).2⟩)
    (Cert.ReferenceIdeal.ValueP.run (F := Ideal) m' ρ')
  exact (Cert.Hadamard.Ref.result_eq _).trans (congrArg Cert.Hadamard.G (hagree c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
